-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S128x2 .f32) (main_arg14 : FVec F S2 .f32) (main_v48 : IVec S_ 1) (main_v49 : FVec F S128x2 .f32) (main_v50 : FVec F S128x2 .f32) : IVec S_ 1 :=
  let main_v51 : IVec S128x2 1 := cmpf .olt main_v49 main_v50
  let main_c_19 : IVec S_ 1 := constantI S_ 1 1#1
  let main_v52 : IVec S_ 1 := (fun x v => Host.reduce IntOp.andi x v reducesTo_S128x2_S_d0_1 h_S_) main_v51 main_c_19
  let main_v53 : IVec S_ 1 := andi main_v48 main_v52
  let main_v54 : FVec F S128x2 .f32 := Host.absf main_arg13
  let main_cst_20 : FVec F S_ .f32 := constant S_ .f32 0x7F800000#32
  let main_v55 : FVec F S128x2 .f32 := broadcastInDim S128x2 ![] bcast_S_S128x2 main_cst_20
  let main_v56 : IVec S128x2 1 := cmpf .olt main_v54 main_v55
  let main_c_21 : IVec S_ 1 := constantI S_ 1 1#1
  let main_v57 : IVec S_ 1 := (fun x v => Host.reduce IntOp.andi x v reducesTo_S128x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S128x128 .f32) (main_arg10 : FVec F S128x128 .f32) (main_arg11 : FVec F S128 .f32) (main_arg12 : FVec F S128x2 .f32) (main_arg13 : FVec F S128x2 .f32) (main_arg14 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x2 .f32 := Host.absf main_arg12
  let main_cst_18 : FVec F S_ .f32 := constant S_ .f32 0x7F800000#32
  let main_v50 : FVec F S128x2 .f32 := broadcastInDim S128x2 ![] bcast_S_S128x2 main_cst_18
  fn_part3 (F := F) main_arg13 main_arg14 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x2 .f32) (main_arg13 : FVec F S128x2 .f32) (main_arg14 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x600000 32) (main_arg2 : IVec S50000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x2 .f32) (main_arg13 : FVec F S128x2 .f32) (main_arg14 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S5000x128 : Shape := ⟨2, ![5000, 128]⟩
abbrev S5000x1 : Shape := ⟨2, ![5000, 1]⟩
abbrev S1x2 : Shape := ⟨2, ![1, 2]⟩
abbrev S50000x2 : Shape := ⟨2, ![50000, 2]⟩
abbrev S5000x2 : Shape := ⟨2, ![5000, 2]⟩
abbrev S512x2 : Shape := ⟨2, ![512, 2]⟩
abbrev S512x1 : Shape := ⟨2, ![512, 1]⟩

abbrev nBuf : Space → Nat
  | .hbm => 106
  | .vmem => 44
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x2, .f32⟩
  | .hbm, ⟨13, _⟩ => ⟨S128x2, .f32⟩
  | .hbm, ⟨14, _⟩ => ⟨S2, .f32⟩
  | .hbm, ⟨15, _⟩ => ⟨S1x600000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S_, .f32⟩
  | .hbm, ⟨20, _⟩ => ⟨S600000x1, .f32⟩
  | .hbm, ⟨21, _⟩ => ⟨S_, .f32⟩
  | .hbm, ⟨22, _⟩ => ⟨S50000x1, .f32⟩
  | .hbm, ⟨23, _⟩ => ⟨S600000x1, .i32⟩
  | .hbm, ⟨24, _⟩ => ⟨S50000x1, .f32⟩
  | .hbm, ⟨25, _⟩ => ⟨S_, .f32⟩
  | .hbm, ⟨26, _⟩ => ⟨S50000x1, .f32⟩
  | .hbm, ⟨27, _⟩ => ⟨S50000x1, .f32⟩
  | .hbm, ⟨28, _⟩ => ⟨S_, .f32⟩
  | .hbm, ⟨29, _⟩ => ⟨S50000x1, .f32⟩
  | .hbm, ⟨30, _⟩ => ⟨S50000x1, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x128, .f32⟩
  | .hbm, ⟨40, _⟩ => ⟨S_, .f32⟩
  | .hbm, ⟨41, _⟩ => ⟨S50000x128, .f32⟩
  | .hbm, ⟨42, _⟩ => ⟨S600000x1, .i32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S_, .f32⟩
  | .hbm, ⟨56, _⟩ => ⟨S50000x128, .f32⟩
  | .hbm, ⟨57, _⟩ => ⟨S600000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S_, .i32⟩
  | .hbm, ⟨62, _⟩ => ⟨S600000, .i32⟩
  | .hbm, ⟨63, _⟩ => ⟨S600000, .i1⟩
  | .hbm, ⟨64, _⟩ => ⟨S_, .i32⟩
  | .hbm, ⟨65, _⟩ => ⟨S600000, .i32⟩
  | .hbm, ⟨66, _⟩ => ⟨S600000, .i32⟩
  | .hbm, ⟨67, _⟩ => ⟨S600000, .i32⟩
  | .hbm, ⟨68, _⟩ => ⟨S600000x1, .i32⟩
  | .hbm, ⟨69, _⟩ => ⟨S600000x128, .f32⟩
  | .hbm, ⟨70, _⟩ => ⟨S_, .f32⟩
  | .hbm, ⟨71, _⟩ => ⟨S50000x128, .f32⟩
  | .hbm, ⟨72, _⟩ => ⟨S600000x1, .i32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S_, .i32⟩
  | .hbm, ⟨77, _⟩ => ⟨S600000, .i32⟩
  | .hbm, ⟨78, _⟩ => ⟨S600000, .i1⟩
  | .hbm, ⟨79, _⟩ => ⟨S_, .i32⟩
  | .hbm, ⟨80, _⟩ => ⟨S600000, .i32⟩
  | .hbm, ⟨81, _⟩ => ⟨S600000, .i32⟩
  | .hbm, ⟨82, _⟩ => ⟨S600000, .i32⟩
  | .hbm, ⟨83, _⟩ => ⟨S600000x1, .i32⟩
  | .hbm, ⟨84, _⟩ => ⟨S600000x128, .f32⟩
  | .hbm, ⟨85, _⟩ => ⟨S_, .f32⟩
  | .hbm, ⟨86, _⟩ => ⟨S50000x128, .f32⟩
  | .hbm, ⟨87, _⟩ => ⟨S600000x1, .i32⟩
  | .hbm, ⟨88, _⟩ => ⟨S50000x128, .f32⟩
  | .hbm, ⟨89, _⟩ => ⟨S1x2, .f32⟩
  | .hbm, ⟨90, _⟩ => ⟨S50000x2, .f32⟩
  | .hbm, ⟨91, _⟩ => ⟨S_, .f32⟩
  | .hbm, ⟨92, _⟩ => ⟨S50000x1, .f32⟩
  | .hbm, ⟨93, _⟩ => ⟨S_, .f32⟩
  | .hbm, ⟨94, _⟩ => ⟨S512x2, .f32⟩
  | .hbm, ⟨95, _⟩ => ⟨S50000x1, .i32⟩
  | .hbm, ⟨96, _⟩ => ⟨S512x2, .f32⟩
  | .hbm, ⟨97, _⟩ => ⟨S_, .f32⟩
  | .hbm, ⟨98, _⟩ => ⟨S512x1, .f32⟩
  | .hbm, ⟨99, _⟩ => ⟨S50000x1, .i32⟩
  | .hbm, ⟨100, _⟩ => ⟨S512x1, .f32⟩
  | .hbm, ⟨101, _⟩ => ⟨S_, .f32⟩
  | .hbm, ⟨102, _⟩ => ⟨S512x1, .f32⟩
  | .hbm, ⟨103, _⟩ => ⟨S512x1, .f32⟩
  | .hbm, ⟨104, _⟩ => ⟨S512x2, .f32⟩
  | .hbm, ⟨105, _⟩ => ⟨S512x2, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S5000x128, .f32⟩
  | .local _ .vmem, ⟨38, _⟩ => ⟨S5000x128, .f32⟩
  | .local _ .vmem, ⟨39, _⟩ => ⟨S128x2, .f32⟩
  | .local _ .vmem, ⟨40, _⟩ => ⟨S128x2, .f32⟩
  | .local _ .vmem, ⟨41, _⟩ => ⟨S1x2, .f32⟩
  | .local _ .vmem, ⟨42, _⟩ => ⟨S5000x2, .f32⟩
  | .local _ .vmem, ⟨43, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_11 : Ref sig .tc := ⟨.hbm, 76, rfl⟩
abbrev main_v48 : Ref sig .tc := ⟨.hbm, 77, rfl⟩
abbrev main_v49 : Ref sig .tc := ⟨.hbm, 78, rfl⟩
abbrev main_c_12 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_13 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_14 : Ref sig .tc := ⟨.hbm, 91, rfl⟩
abbrev main_v60 : Ref sig .tc := ⟨.hbm, 92, rfl⟩
abbrev main_cst_15 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_16 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_17 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x2 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000x1 : S_.BroadcastsInDim S600000x1 (![] : Fin 0 → Fin S600000x1.rank)
  bcast_S_S50000x1 : S_.BroadcastsInDim S50000x1 (![] : Fin 0 → Fin S50000x1.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  bcast_S_S512x2 : S_.BroadcastsInDim S512x2 (![] : Fin 0 → Fin S512x2.rank)
  bcast_S50000_S50000x1_0 : S50000.BroadcastsInDim S50000x1 (![0] : Fin 1 → Fin S50000x1.rank)
  bcast_S_S512x1 : S_.BroadcastsInDim S512x1 (![] : Fin 0 → Fin S512x1.rank)
  bcast_S512x1_S512x2_0_1 : S512x1.BroadcastsInDim S512x2 (![0, 1] : Fin 2 → Fin S512x2.rank)
  scatter_S50000x1_S600000x1_S600000x1_1_0_0_1_wf : ScatterDims.WF S50000x1 S600000x1 S600000x1 [1] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  scatter_S512x2_S50000x1_S50000x2_1_0_0_1_wf : ScatterDims.WF S512x2 S50000x1 S50000x2 [1] [0] [0] 1
  scatter_S512x1_S50000x1_S50000x1_1_0_0_1_wf : ScatterDims.WF S512x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x2.size a ≤ S128x2.size a
  hwx3_3 : ∀ i : grid3.Coords, EltTy.bits .f32 = 32 ∨ (Rect.block (s := S128x2) S128x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x2.size a ≤ S128x2.size a
  hwx3_4 : ∀ i : grid3.Coords, EltTy.bits .f32 = 32 ∨ (Rect.block (s := S128x2) S128x2.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x2.size a ≤ S1x2.size a
  hwx3_5 : ∀ i : grid3.Coords, EltTy.bits .f32 = 32 ∨ (Rect.block (s := S1x2) S1x2.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x2.size a ≤ S50000x2.size a
  hwx3_6 : ∀ i : grid3.Coords, EltTy.bits .f32 = 32 ∨ (Rect.block (s := S50000x2) S5000x2.size (cc3_transform_6 i) (hinb3_6 i)).WholeWords (EltTy.packing .f32)

variable [Facts₀]

def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def scatter_S512x2_S50000x1_S50000x2_1_0_0_1 : ScatterDims S512x2 S50000x1 S50000x2 where
  updateWindowDims := [1]
  insertedWindowDims := [0]
  scatterDimsToOperandDims := [0]
  indexVectorDim := 1
  wf := scatter_S512x2_S50000x1_S50000x2_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S128x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S1x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S5000x2.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S50000x2 : Shape := ⟨2, ![50000, 2]⟩
abbrev S1x2 : Shape := ⟨2, ![1, 2]⟩
abbrev S512x2 : Shape := ⟨2, ![512, 2]⟩
abbrev S512x1 : Shape := ⟨2, ![512, 1]⟩

abbrev nBuf : Space → Nat
  | .hbm => 163
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x2, .f32⟩
  | 13 => ⟨S128x2, .f32⟩
  | 14 => ⟨S2, .f32⟩
  | 15 => ⟨S1x600000, .i32⟩
  | 16 => ⟨S600000, .i32⟩
  | 17 => ⟨S1x600000, .i32⟩
  | 18 => ⟨S600000, .i32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x128, .f32⟩
  | 28 => ⟨S_, .f32⟩
  | 29 => ⟨S50000x128, .f32⟩
  | 30 => ⟨S600000x1, .i32⟩
  | 31 => ⟨S50000x128, .f32⟩
  | 32 => ⟨S_, .f32⟩
  | 33 => ⟨S600000x1, .f32⟩
  | 34 => ⟨S_, .f32⟩
  | 35 => ⟨S50000x1, .f32⟩
  | 36 => ⟨S600000x1, .i32⟩
  | 37 => ⟨S50000x1, .f32⟩
  | 38 => ⟨S_, .f32⟩
  | 39 => ⟨S50000x1, .f32⟩
  | 40 => ⟨S50000x1, .f32⟩
  | 41 => ⟨S50000x128, .f32⟩
  | 42 => ⟨S50000x128, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S_, .f32⟩
  | 62 => ⟨S50000x128, .f32⟩
  | 63 => ⟨S600000x1, .i32⟩
  | 64 => ⟨S50000x128, .f32⟩
  | 65 => ⟨S_, .f32⟩
  | 66 => ⟨S600000x1, .f32⟩
  | 67 => ⟨S_, .f32⟩
  | 68 => ⟨S50000x1, .f32⟩
  | 69 => ⟨S600000x1, .i32⟩
  | 70 => ⟨S50000x1, .f32⟩
  | 71 => ⟨S_, .f32⟩
  | 72 => ⟨S50000x1, .f32⟩
  | 73 => ⟨S50000x1, .f32⟩
  | 74 => ⟨S50000x128, .f32⟩
  | 75 => ⟨S50000x128, .f32⟩
  | 76 => ⟨S50000x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000x128, .f32⟩
  | 94 => ⟨S_, .f32⟩
  | 95 => ⟨S50000x128, .f32⟩
  | 96 => ⟨S600000x1, .i32⟩
  | 97 => ⟨S50000x128, .f32⟩
  | 98 => ⟨S_, .f32⟩
  | 99 => ⟨S600000x1, .f32⟩
  | 100 => ⟨S_, .f32⟩
  | 101 => ⟨S50000x1, .f32⟩
  | 102 => ⟨S600000x1, .i32⟩
  | 103 => ⟨S50000x1, .f32⟩
  | 104 => ⟨S_, .f32⟩
  | 105 => ⟨S50000x1, .f32⟩
  | 106 => ⟨S50000x1, .f32⟩
  | 107 => ⟨S50000x128, .f32⟩
  | 108 => ⟨S50000x128, .f32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S_, .i32⟩
  | 119 => ⟨S600000, .i32⟩
  | 120 => ⟨S600000, .i1⟩
  | 121 => ⟨S_, .i32⟩
  | 122 => ⟨S600000, .i32⟩
  | 123 => ⟨S600000, .i32⟩
  | 124 => ⟨S600000, .i32⟩
  | 125 => ⟨S600000x1, .i32⟩
  | 126 => ⟨S600000x128, .f32⟩
  | 127 => ⟨S_, .f32⟩
  | _ => ⟨S50000x128, .f32⟩

abbrev hbmTy0_1 (i : Nat) : BufTy := match i % 128 with
  | 0 => ⟨S50000x128, .f32⟩
  | 1 => ⟨S600000x1, .i32⟩
  | 2 => ⟨S50000x128, .f32⟩
  | 3 => ⟨S_, .f32⟩
  | 4 => ⟨S600000x1, .f32⟩
  | 5 => ⟨S_, .f32⟩
  | 6 => ⟨S50000x1, .f32⟩
  | 7 => ⟨S600000x1, .i32⟩
  | 8 => ⟨S50000x1, .f32⟩
  | 9 => ⟨S_, .f32⟩
  | 10 => ⟨S50000x1, .f32⟩
  | 11 => ⟨S50000x1, .f32⟩
  | 12 => ⟨S50000x128, .f32⟩
  | 13 => ⟨S50000x128, .f32⟩
  | 14 => ⟨S50000x2, .f32⟩
  | 15 => ⟨S50000x2, .f32⟩
  | 16 => ⟨S50000x2, .f32⟩
  | 17 => ⟨S1x2, .f32⟩
  | 18 => ⟨S50000x2, .f32⟩
  | 19 => ⟨S50000x2, .f32⟩
  | 20 => ⟨S_, .f32⟩
  | 21 => ⟨S512x2, .f32⟩
  | 22 => ⟨S50000x1, .i32⟩
  | 23 => ⟨S512x2, .f32⟩
  | 24 => ⟨S_, .f32⟩
  | 25 => ⟨S50000x1, .f32⟩
  | 26 => ⟨S_, .f32⟩
  | 27 => ⟨S512x1, .f32⟩
  | 28 => ⟨S50000x1, .i32⟩
  | 29 => ⟨S512x1, .f32⟩
  | 30 => ⟨S_, .f32⟩
  | 31 => ⟨S512x1, .f32⟩
  | 32 => ⟨S512x1, .f32⟩
  | 33 => ⟨S512x2, .f32⟩
  | 34 => ⟨S512x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call0_cst : Ref sig .tc := ⟨.hbm, 49, rfl⟩
abbrev main_call0_v0 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_cst_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call1_cst : Ref sig .tc := ⟨.hbm, 82, rfl⟩
abbrev main_call1_v0 : Ref sig .tc := ⟨.hbm, 83, rfl⟩
abbrev main_v53 : Ref sig .tc := ⟨.hbm, 84, rfl⟩
abbrev main_c_10 : Ref sig .tc := ⟨.hbm, 85, rfl⟩
abbrev main_v54 : Ref sig .tc := ⟨.hbm, 86, rfl⟩
abbrev main_v55 : Ref sig .tc := ⟨.hbm, 87, rfl⟩
abbrev main_c_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_cst_14 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_call2_cst : Ref sig .tc := ⟨.hbm, 115, rfl⟩
abbrev main_call2_v0 : Ref sig .tc := ⟨.hbm, 116, rfl⟩
abbrev main_v78 : Ref sig .tc := ⟨.hbm, 117, rfl⟩
abbrev main_c_16 : Ref sig .tc := ⟨.hbm, 118, rfl⟩
abbrev main_v79 : Ref sig .tc := ⟨.hbm, 119, rfl⟩
abbrev main_v80 : Ref sig .tc := ⟨.hbm, 120, rfl⟩
abbrev main_c_17 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_18 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_19 : Ref sig .tc := ⟨.hbm, 131, rfl⟩
abbrev main_v89 : Ref sig .tc := ⟨.hbm, 132, rfl⟩
abbrev main_cst_20 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_21 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_22 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_23 : Ref sig .tc := ⟨.hbm, 152, rfl⟩
abbrev main_v106 : Ref sig .tc := ⟨.hbm, 153, rfl⟩
abbrev main_cst_24 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_25 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S512x2 : S_.BroadcastsInDim S512x2 (![] : Fin 0 → Fin S512x2.rank)
  bcast_S50000_S50000x1_0 : S50000.BroadcastsInDim S50000x1 (![0] : Fin 1 → Fin S50000x1.rank)
  bcast_S_S512x1 : S_.BroadcastsInDim S512x1 (![] : Fin 0 → Fin S512x1.rank)
  bcast_S512x1_S512x2_0_1 : S512x1.BroadcastsInDim S512x2 (![0, 1] : Fin 2 → Fin S512x2.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []
  scatter_S512x2_S50000x1_S50000x2_1_0_0_1_wf : ScatterDims.WF S512x2 S50000x1 S50000x2 [1] [0] [0] 1
  scatter_S512x1_S50000x1_S50000x1_1_0_0_1_wf : ScatterDims.WF S512x1 S50000x1 S50000x1 [1] [0] [0] 1

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def scatter_S512x2_S50000x1_S50000x2_1_0_0_1 : ScatterDims S512x2 S50000x1 S50000x2 where
  updateWindowDims := [1]
  insertedWindowDims := [0]
  scatterDimsToOperandDims := [0]
  indexVectorDim := 1
  wf := scatter_S512x2_S50000x1_S50000x2_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf

class Facts : Prop extends Facts₀ where

variable [Facts]
-- ==== Proof.KernelRun.lean ====
/-
  The idealized kernel's run, read at every buffer.

  @main is five stretches of host operations around four launches of the layer kernel. Every weakly fair execution
  terminates without a fault, and in its final state every buffer that is not scoped to a kernel body holds what the
  fold through those nine segments leaves there: a stretch of host operations applied to what the previous launch
  wrote back, from the launch memory on. Read at the result buffer this is the last stretch applied to the fourth
  launch's output; read at an argument it is the launch contents, since nothing writes an argument.
-/
import proofs.«105065_j57767310131742_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, every unscoped buffer ending at the contents
    the fold through @main's nine segments leaves in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The same run with the result buffer and the fifteen argument arrays read off: the result at the fold's contents,
    each argument as launched. -/
theorem run : θ_run defs (onTc (τ := τ) (main (F := F))) ⟨m, fun _ => 0, ρ⟩ (fun r => ∀ c : Dev nD,
      r.2.mem ((c.tc : Thread nD τ).loc main_v70) = W9 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v70 (by decide)),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c),
      (h c _ (mem_uc main_arg12 (by decide))).trans (W9_main_arg12 m ρ c),
      (h c _ (mem_uc main_arg13 (by decide))).trans (W9_main_arg13 m ρ c),
      (h c _ (mem_uc main_arg14 (by decide))).trans (W9_main_arg14 m ρ c)⟩)
    (run_all m ρ)

end Cert.KernelIdeal.KRun

end
-- ==== Proof.Spec.lean ====
/-
  One layer of neighbourhood averaging followed by two linear maps, index by index.

  A node's new feature vector is the sum of two matrix products and a bias: the node's aggregated neighbour features,
  each row scaled by that node's reciprocal in-degree, times the left weight matrix; the node's own features times the
  right weight matrix; and the bias row. At node `p` and output channel `q` this is

    (∑ k, agg (p, k) · dinv (p, 0) · Wl (k, q)) + (∑ k, h (p, k) · Wr (k, q)) + b (0, q),

  optionally clamped below at zero. The value at row `p` depends on row `p` of `agg`, `dinv` and `h` only, so a block of
  rows of the result is the same expression of the same block of rows of the three inputs.
-/
import Idealize.ShloMosaic.Lib.ValueIdx
import Idealize.ShloMosaic.PureOps.Ideal
import Idealize.ShloMosaic.PureOps.Ideal.Laws

noncomputable section

namespace Cert.Layer

open Idealize.ShloMosaic Idealize.ShloMosaic.ValueIdx
open scoped BigOperators

variable {n f g : ℕ}

/-- The layer's affine part at node `p`, output channel `q`. -/
def affine (agg : FVec Ideal ⟨2, ![n, f]⟩ .f32) (dinv : FVec Ideal ⟨2, ![n, 1]⟩ .f32) (h : FVec Ideal ⟨2, ![n, f]⟩ .f32)
    (Wl Wr : FVec Ideal ⟨2, ![f, g]⟩ .f32) (b : FVec Ideal ⟨2, ![1, g]⟩ .f32) (p : Fin n) (q : Fin g) : EReal :=
  (∑ k : Fin f, agg (ix2 p k) * dinv (ix2 p (0 : Fin 1)) * Wl (ix2 k q)) + (∑ k : Fin f, h (ix2 p k) * Wr (ix2 k q))
    + b (ix2 (0 : Fin 1) q)

/-- The layer without the clamp, as one array. -/
def lin (agg : FVec Ideal ⟨2, ![n, f]⟩ .f32) (dinv : FVec Ideal ⟨2, ![n, 1]⟩ .f32) (h : FVec Ideal ⟨2, ![n, f]⟩ .f32)
    (Wl Wr : FVec Ideal ⟨2, ![f, g]⟩ .f32) (b : FVec Ideal ⟨2, ![1, g]⟩ .f32) : FVec Ideal ⟨2, ![n, g]⟩ .f32 :=
  fun j => affine agg dinv h Wl Wr b (j 0) (j 1)

/-- The layer clamped below at zero, as one array. -/
def rect (agg : FVec Ideal ⟨2, ![n, f]⟩ .f32) (dinv : FVec Ideal ⟨2, ![n, 1]⟩ .f32) (h : FVec Ideal ⟨2, ![n, f]⟩ .f32)
    (Wl Wr : FVec Ideal ⟨2, ![f, g]⟩ .f32) (b : FVec Ideal ⟨2, ![1, g]⟩ .f32) : FVec Ideal ⟨2, ![n, g]⟩ .f32 :=
  fun j => max (affine agg dinv h Wl Wr b (j 0) (j 1)) 0

/-- The affine part at row `p`, column `q` of one family of arrays is the affine part at row `P`, column `Q` of another when
    row `p` of the first family's row-indexed arrays is row `P` of the second's and column `q` of the first's weights and
    bias is column `Q` of the second's: a block of rows of the layer is the layer of that block of rows. -/
theorem affine_block {n' : ℕ} (A : FVec Ideal ⟨2, ![n, f]⟩ .f32) (D : FVec Ideal ⟨2, ![n, 1]⟩ .f32)
    (H : FVec Ideal ⟨2, ![n, f]⟩ .f32) (Wl Wr : FVec Ideal ⟨2, ![f, g]⟩ .f32) (b : FVec Ideal ⟨2, ![1, g]⟩ .f32)
    (x0 : FVec Ideal ⟨2, ![n', f]⟩ .f32) (x1 : FVec Ideal ⟨2, ![n', 1]⟩ .f32) (x2 : FVec Ideal ⟨2, ![n', f]⟩ .f32)
    (x3 x4 : FVec Ideal ⟨2, ![f, g]⟩ .f32) (x5 : FVec Ideal ⟨2, ![1, g]⟩ .f32)
    (p : Fin n') (P : Fin n) (q Q : Fin g)
    (h0 : ∀ k : Fin f, x0 (ix2 p k) = A (ix2 P k)) (h1 : x1 (ix2 p (0 : Fin 1)) = D (ix2 P (0 : Fin 1)))
    (h2 : ∀ k : Fin f, x2 (ix2 p k) = H (ix2 P k))
    (h3 : ∀ k : Fin f, x3 (ix2 k q) = Wl (ix2 k Q)) (h4 : ∀ k : Fin f, x4 (ix2 k q) = Wr (ix2 k Q))
    (h5 : x5 (ix2 (0 : Fin 1) q) = b (ix2 (0 : Fin 1) Q)) :
    affine x0 x1 x2 x3 x4 x5 p q = affine A D H Wl Wr b P Q := by
  unfold affine
  simp only [h0, h1, h2, h3, h4, h5]

/-- A product with the reciprocal of a nonzero number is the quotient by it, on all extended reals. -/
theorem mul_recip (a d : EReal) (hd : d ≠ 0) : a * Ideal.div 1 d = Ideal.div a d := by
  unfold Ideal.div
  rw [if_neg hd, if_neg hd, one_mul]

/-- A number clamped below at one is not zero. -/
theorem max_one_ne_zero (x : EReal) : max x 1 ≠ 0 :=
  ne_of_gt (lt_of_lt_of_le zero_lt_one (le_max_right x 1))

end Cert.Layer

end
-- ==== Proof.KHost.lean ====
/-
  The host-side pieces of the idealized kernel program, as functions of arrays.

  The edge list is a 2 × 600000 array of node numbers: row 0 the source of each edge, row 1 its destination. A layer's
  aggregate sums, into each destination node's row, the feature rows of the sources of the edges that end there (a
  gather through the sources, negative numbers counted from the end, then a scatter-add through the destinations); the
  in-degree column counts those edges by scatter-adding ones. The last stretch pools node rows by graph: a
  scatter-add through the graph number of each node, divided by the number of nodes of the graph clamped below at one.
-/
import proofs.«105065_j57767310131742_2_alg».proof.Proof.Gen.KernelIdeal

noncomputable section

namespace Cert.KernelIdeal.Host

open Cert.KernelIdeal Cert.KernelIdeal.Gen Idealize.ShloMosaic

variable {F : FTy → Type} [FloatOps F]

/-- Row 0 of the edge list: each edge's source node. -/
def src (e : (⟨S2x600000, .i32⟩ : BufTy).Contents (Elt F)) : (⟨S600000, .i32⟩ : BufTy).Contents (Elt F) :=
  shapeCast S600000 (extractStridedSlice S1x600000 ![0, 0] e slices_S2x600000_S1x600000_0_0) shapeCasts_S1x600000_S600000

/-- Row 1 of the edge list: each edge's destination node. -/
def dst (e : (⟨S2x600000, .i32⟩ : BufTy).Contents (Elt F)) : (⟨S600000, .i32⟩ : BufTy).Contents (Elt F) :=
  shapeCast S600000 (extractStridedSlice S1x600000 ![1, 0] e slices_S2x600000_S1x600000_1_0) shapeCasts_S1x600000_S600000

/-- The neighbour sum: for each node, the sum over the edges ending there of the feature row of the edge's source. -/
def agg (h : (⟨S50000x128, .f32⟩ : BufTy).Contents (Elt F)) (s d : (⟨S600000, .i32⟩ : BufTy).Contents (Elt F)) :
    (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 d)
    (Host.gather gather_S50000x128_S600000x1_S600000x128_1_0_n_n_0_1_1128 h
      (broadcastInDim S600000x1 ![0] bcast_S600000_S600000x1_0
        (select (cmpi CmpIPredicate.slt s (broadcastInDim S600000 ![] bcast_S_S600000 (constantI S_ 32 0#32)))
          (addi s (broadcastInDim S600000 ![] bcast_S_S600000 (constantI S_ 32 50000#32))) s)))

/-- The in-degree column clamped below at one. -/
def degc (d : (⟨S600000, .i32⟩ : BufTy).Contents (Elt F)) : (⟨S50000x1, .f32⟩ : BufTy).Contents (Elt F) :=
  maximumf
    (Host.scatterAdd scatter_S50000x1_S600000x1_S600000x1_1_0_0_1
      (broadcastInDim S50000x1 ![] bcast_S_S50000x1 (constant S_ .f32 0x00000000#32))
      (broadcastInDim S600000x1 ![0] bcast_S600000_S600000x1_0 d)
      (broadcastInDim S600000x1 ![] bcast_S_S600000x1 (constant S_ .f32 0x3F800000#32)))
    (broadcastInDim S50000x1 ![] bcast_S_S50000x1 (constant S_ .f32 0x3F800000#32))

/-- The pooling by graph: each graph's sum of node rows over its number of nodes clamped below at one. -/
def pool (b : (⟨S50000, .i32⟩ : BufTy).Contents (Elt F)) (h : (⟨S50000x2, .f32⟩ : BufTy).Contents (Elt F)) :
    (⟨S512x2, .f32⟩ : BufTy).Contents (Elt F) :=
  Host.divf
    (Host.scatterAdd scatter_S512x2_S50000x1_S50000x2_1_0_0_1
      (broadcastInDim S512x2 ![] bcast_S_S512x2 (constant S_ .f32 0x00000000#32))
      (broadcastInDim S50000x1 ![0] bcast_S50000_S50000x1_0 b) h)
    (broadcastInDim S512x2 ![0, 1] bcast_S512x1_S512x2_0_1
      (maximumf
        (Host.scatterAdd scatter_S512x1_S50000x1_S50000x1_1_0_0_1
          (broadcastInDim S512x1 ![] bcast_S_S512x1 (constant S_ .f32 0x00000000#32))
          (broadcastInDim S50000x1 ![0] bcast_S50000_S50000x1_0 b)
          (broadcastInDim S50000x1 ![] bcast_S_S50000x1 (constant S_ .f32 0x3F800000#32)))
        (broadcastInDim S512x1 ![] bcast_S_S512x1 (constant S_ .f32 0x3F800000#32))))

/-- The reciprocal in-degree column the kernel program computes once. -/
def dinv (d : (⟨S600000, .i32⟩ : BufTy).Contents (Elt F)) : (⟨S50000x1, .f32⟩ : BufTy).Contents (Elt F) :=
  Host.divf (broadcastInDim S50000x1 ![] bcast_S_S50000x1 (constant S_ .f32 0x3F800000#32)) (degc d)

/-- A length-128 bias as a 1 × 128 row. -/
def brow (b : (⟨S128, .f32⟩ : BufTy).Contents (Elt F)) : (⟨S1x128, .f32⟩ : BufTy).Contents (Elt F) :=
  shapeCast S1x128 b shapeCasts_S128_S1x128

/-- A length-2 bias as a 1 × 2 row. -/
def brow2 (b : (⟨S2, .f32⟩ : BufTy).Contents (Elt F)) : (⟨S1x2, .f32⟩ : BufTy).Contents (Elt F) :=
  shapeCast S1x2 b shapeCasts_S2_S1x2

end Cert.KernelIdeal.Host

end
-- ==== Proof.HostOps.lean ====
/-
  The idealized kernel program's five stretches of host operations, read back.

  Each stretch is a straight line of array operations. From any contents of the buffers it reads, the buffer a
  stretch writes for a later launch or for the result ends holding the composed operations of the buffers read: the
  edge list's two rows, the reciprocal in-degree column, a layer's neighbour sum from the previous layer's output, a
  bias as a row, and the pooling of the last layer's output by graph.
-/
import proofs.«105065_j57767310131742_2_alg».proof.Proof.Gen.KernelIdeal.Frame
import proofs.«105065_j57767310131742_2_alg».proof.Proof.KHost
import Idealize.ShloMosaic.Lib.StableHlo.Run

set_option maxRecDepth 16384

noncomputable section

namespace Cert.KernelIdeal.HostOps

open Cert.KernelIdeal Cert.KernelIdeal.Gen Idealize.ShloMosaic Idealize.ShloMosaic.TcCoe Idealize.SL.Sem
open Idealize.ShloMosaic.StableHlo

variable {F : FTy → Type} [FloatOps F] (W : Valuation τ sig (Elt F))

set_option maxHeartbeats 4000000 in
theorem ops0_main_v1 : StableHlo.after (hostOps0 (F := F)) W (Proc.devRef .tc main_v1) = Host.src (W (Proc.devRef .tc main_arg1)) := by
  dsimp only [hostOps0]
  after_results
  rfl

set_option maxHeartbeats 4000000 in
theorem ops0_main_v3 : StableHlo.after (hostOps0 (F := F)) W (Proc.devRef .tc main_v3) = Host.dst (W (Proc.devRef .tc main_arg1)) := by
  dsimp only [hostOps0]
  after_results
  rfl

set_option maxHeartbeats 4000000 in
theorem ops0_main_v11 : StableHlo.after (hostOps0 (F := F)) W (Proc.devRef .tc main_v11) = Host.dinv (Host.dst (W (Proc.devRef .tc main_arg1))) := by
  dsimp only [hostOps0]
  after_results
  rfl

set_option maxHeartbeats 4000000 in
theorem ops0_main_v21 : StableHlo.after (hostOps0 (F := F)) W (Proc.devRef .tc main_v21) = Host.agg (W (Proc.devRef .tc main_arg0)) (Host.src (W (Proc.devRef .tc main_arg1))) (Host.dst (W (Proc.devRef .tc main_arg1))) := by
  dsimp only [hostOps0]
  after_results
  rfl

set_option maxHeartbeats 4000000 in
theorem ops0_main_v22 : StableHlo.after (hostOps0 (F := F)) W (Proc.devRef .tc main_v22) = Host.brow (W (Proc.devRef .tc main_arg5)) := by
  dsimp only [hostOps0]
  after_results
  rfl

set_option maxHeartbeats 4000000 in
theorem ops1_main_v33 : StableHlo.after (hostOps1 (F := F)) W (Proc.devRef .tc main_v33) = Host.agg (W (Proc.devRef .tc main_v23)) (W (Proc.devRef .tc main_v1)) (W (Proc.devRef .tc main_v3)) := by
  dsimp only [hostOps1]
  after_results
  rfl

set_option maxHeartbeats 4000000 in
theorem ops1_main_v34 : StableHlo.after (hostOps1 (F := F)) W (Proc.devRef .tc main_v34) = Host.brow (W (Proc.devRef .tc main_arg8)) := by
  dsimp only [hostOps1]
  after_results
  rfl

set_option maxHeartbeats 4000000 in
theorem ops2_main_v45 : StableHlo.after (hostOps2 (F := F)) W (Proc.devRef .tc main_v45) = Host.agg (W (Proc.devRef .tc main_v35)) (W (Proc.devRef .tc main_v1)) (W (Proc.devRef .tc main_v3)) := by
  dsimp only [hostOps2]
  after_results
  rfl

set_option maxHeartbeats 4000000 in
theorem ops2_main_v46 : StableHlo.after (hostOps2 (F := F)) W (Proc.devRef .tc main_v46) = Host.brow (W (Proc.devRef .tc main_arg11)) := by
  dsimp only [hostOps2]
  after_results
  rfl

set_option maxHeartbeats 4000000 in
theorem ops3_main_v57 : StableHlo.after (hostOps3 (F := F)) W (Proc.devRef .tc main_v57) = Host.agg (W (Proc.devRef .tc main_v47)) (W (Proc.devRef .tc main_v1)) (W (Proc.devRef .tc main_v3)) := by
  dsimp only [hostOps3]
  after_results
  rfl

set_option maxHeartbeats 4000000 in
theorem ops3_main_v58 : StableHlo.after (hostOps3 (F := F)) W (Proc.devRef .tc main_v58) = Host.brow2 (W (Proc.devRef .tc main_arg14)) := by
  dsimp only [hostOps3]
  after_results
  rfl

set_option maxHeartbeats 4000000 in
theorem ops4_main_v70 : StableHlo.after (hostOps4 (F := F)) W (Proc.devRef .tc main_v70) = Host.pool (W (Proc.devRef .tc main_arg2)) (W (Proc.devRef .tc main_v59)) := by
  dsimp only [hostOps4]
  after_results
  rfl

end Cert.KernelIdeal.HostOps

end
-- ==== Proof.Keeps.lean ====
/-
  What the idealized kernel program's stretches of host operations leave alone.

  A stretch of host operations changes only the buffers its operations write. None of the first four stretches writes
  an argument array, the two rows of the edge list or the reciprocal in-degree column once these exist, or the
  previous launch's output: each such buffer holds after the stretch what it held before.
-/
import proofs.«105065_j57767310131742_2_alg».proof.Proof.Gen.KernelIdeal.Frame

set_option maxRecDepth 16384

noncomputable section

namespace Cert.KernelIdeal.Keeps

open Cert.KernelIdeal Cert.KernelIdeal.Gen Idealize.ShloMosaic Idealize.ShloMosaic.TcCoe Idealize.SL.Sem

variable {F : FTy → Type} [FloatOps F] (W : Valuation τ sig (Elt F))

theorem keep0_main_arg0 : StableHlo.after (hostOps0 (F := F)) W (Proc.devRef .tc main_arg0) = W (Proc.devRef .tc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep0_main_arg2 : StableHlo.after (hostOps0 (F := F)) W (Proc.devRef .tc main_arg2) = W (Proc.devRef .tc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep0_main_arg3 : StableHlo.after (hostOps0 (F := F)) W (Proc.devRef .tc main_arg3) = W (Proc.devRef .tc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep0_main_arg4 : StableHlo.after (hostOps0 (F := F)) W (Proc.devRef .tc main_arg4) = W (Proc.devRef .tc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep0_main_arg6 : StableHlo.after (hostOps0 (F := F)) W (Proc.devRef .tc main_arg6) = W (Proc.devRef .tc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep0_main_arg7 : StableHlo.after (hostOps0 (F := F)) W (Proc.devRef .tc main_arg7) = W (Proc.devRef .tc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep0_main_arg8 : StableHlo.after (hostOps0 (F := F)) W (Proc.devRef .tc main_arg8) = W (Proc.devRef .tc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep0_main_arg9 : StableHlo.after (hostOps0 (F := F)) W (Proc.devRef .tc main_arg9) = W (Proc.devRef .tc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep0_main_arg10 : StableHlo.after (hostOps0 (F := F)) W (Proc.devRef .tc main_arg10) = W (Proc.devRef .tc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep0_main_arg11 : StableHlo.after (hostOps0 (F := F)) W (Proc.devRef .tc main_arg11) = W (Proc.devRef .tc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep0_main_arg12 : StableHlo.after (hostOps0 (F := F)) W (Proc.devRef .tc main_arg12) = W (Proc.devRef .tc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep0_main_arg13 : StableHlo.after (hostOps0 (F := F)) W (Proc.devRef .tc main_arg13) = W (Proc.devRef .tc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep0_main_arg14 : StableHlo.after (hostOps0 (F := F)) W (Proc.devRef .tc main_arg14) = W (Proc.devRef .tc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep1_main_v1 : StableHlo.after (hostOps1 (F := F)) W (Proc.devRef .tc main_v1) = W (Proc.devRef .tc main_v1) :=
  StableHlo.after_of_forall_not_mem (b := Proc.devRef .tc main_v1) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep1_main_v3 : StableHlo.after (hostOps1 (F := F)) W (Proc.devRef .tc main_v3) = W (Proc.devRef .tc main_v3) :=
  StableHlo.after_of_forall_not_mem (b := Proc.devRef .tc main_v3) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep1_main_v11 : StableHlo.after (hostOps1 (F := F)) W (Proc.devRef .tc main_v11) = W (Proc.devRef .tc main_v11) :=
  StableHlo.after_of_forall_not_mem (b := Proc.devRef .tc main_v11) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep1_main_v23 : StableHlo.after (hostOps1 (F := F)) W (Proc.devRef .tc main_v23) = W (Proc.devRef .tc main_v23) :=
  StableHlo.after_of_forall_not_mem (b := Proc.devRef .tc main_v23) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep1_main_arg2 : StableHlo.after (hostOps1 (F := F)) W (Proc.devRef .tc main_arg2) = W (Proc.devRef .tc main_arg2) :=
  StableHlo.after_of_forall_not_mem (b := Proc.devRef .tc main_arg2) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep1_main_arg6 : StableHlo.after (hostOps1 (F := F)) W (Proc.devRef .tc main_arg6) = W (Proc.devRef .tc main_arg6) :=
  StableHlo.after_of_forall_not_mem (b := Proc.devRef .tc main_arg6) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep1_main_arg7 : StableHlo.after (hostOps1 (F := F)) W (Proc.devRef .tc main_arg7) = W (Proc.devRef .tc main_arg7) :=
  StableHlo.after_of_forall_not_mem (b := Proc.devRef .tc main_arg7) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep1_main_arg9 : StableHlo.after (hostOps1 (F := F)) W (Proc.devRef .tc main_arg9) = W (Proc.devRef .tc main_arg9) :=
  StableHlo.after_of_forall_not_mem (b := Proc.devRef .tc main_arg9) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep1_main_arg10 : StableHlo.after (hostOps1 (F := F)) W (Proc.devRef .tc main_arg10) = W (Proc.devRef .tc main_arg10) :=
  StableHlo.after_of_forall_not_mem (b := Proc.devRef .tc main_arg10) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep1_main_arg11 : StableHlo.after (hostOps1 (F := F)) W (Proc.devRef .tc main_arg11) = W (Proc.devRef .tc main_arg11) :=
  StableHlo.after_of_forall_not_mem (b := Proc.devRef .tc main_arg11) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep1_main_arg12 : StableHlo.after (hostOps1 (F := F)) W (Proc.devRef .tc main_arg12) = W (Proc.devRef .tc main_arg12) :=
  StableHlo.after_of_forall_not_mem (b := Proc.devRef .tc main_arg12) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep1_main_arg13 : StableHlo.after (hostOps1 (F := F)) W (Proc.devRef .tc main_arg13) = W (Proc.devRef .tc main_arg13) :=
  StableHlo.after_of_forall_not_mem (b := Proc.devRef .tc main_arg13) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep1_main_arg14 : StableHlo.after (hostOps1 (F := F)) W (Proc.devRef .tc main_arg14) = W (Proc.devRef .tc main_arg14) :=
  StableHlo.after_of_forall_not_mem (b := Proc.devRef .tc main_arg14) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep2_main_v1 : StableHlo.after (hostOps2 (F := F)) W (Proc.devRef .tc main_v1) = W (Proc.devRef .tc main_v1) :=
  StableHlo.after_of_forall_not_mem (b := Proc.devRef .tc main_v1) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep2_main_v3 : StableHlo.after (hostOps2 (F := F)) W (Proc.devRef .tc main_v3) = W (Proc.devRef .tc main_v3) :=
  StableHlo.after_of_forall_not_mem (b := Proc.devRef .tc main_v3) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep2_main_v11 : StableHlo.after (hostOps2 (F := F)) W (Proc.devRef .tc main_v11) = W (Proc.devRef .tc main_v11) :=
  StableHlo.after_of_forall_not_mem (b := Proc.devRef .tc main_v11) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep2_main_v35 : StableHlo.after (hostOps2 (F := F)) W (Proc.devRef .tc main_v35) = W (Proc.devRef .tc main_v35) :=
  StableHlo.after_of_forall_not_mem (b := Proc.devRef .tc main_v35) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep2_main_arg2 : StableHlo.after (hostOps2 (F := F)) W (Proc.devRef .tc main_arg2) = W (Proc.devRef .tc main_arg2) :=
  StableHlo.after_of_forall_not_mem (b := Proc.devRef .tc main_arg2) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep2_main_arg9 : StableHlo.after (hostOps2 (F := F)) W (Proc.devRef .tc main_arg9) = W (Proc.devRef .tc main_arg9) :=
  StableHlo.after_of_forall_not_mem (b := Proc.devRef .tc main_arg9) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep2_main_arg10 : StableHlo.after (hostOps2 (F := F)) W (Proc.devRef .tc main_arg10) = W (Proc.devRef .tc main_arg10) :=
  StableHlo.after_of_forall_not_mem (b := Proc.devRef .tc main_arg10) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep2_main_arg12 : StableHlo.after (hostOps2 (F := F)) W (Proc.devRef .tc main_arg12) = W (Proc.devRef .tc main_arg12) :=
  StableHlo.after_of_forall_not_mem (b := Proc.devRef .tc main_arg12) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep2_main_arg13 : StableHlo.after (hostOps2 (F := F)) W (Proc.devRef .tc main_arg13) = W (Proc.devRef .tc main_arg13) :=
  StableHlo.after_of_forall_not_mem (b := Proc.devRef .tc main_arg13) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep2_main_arg14 : StableHlo.after (hostOps2 (F := F)) W (Proc.devRef .tc main_arg14) = W (Proc.devRef .tc main_arg14) :=
  StableHlo.after_of_forall_not_mem (b := Proc.devRef .tc main_arg14) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep3_main_v11 : StableHlo.after (hostOps3 (F := F)) W (Proc.devRef .tc main_v11) = W (Proc.devRef .tc main_v11) :=
  StableHlo.after_of_forall_not_mem (b := Proc.devRef .tc main_v11) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep3_main_v47 : StableHlo.after (hostOps3 (F := F)) W (Proc.devRef .tc main_v47) = W (Proc.devRef .tc main_v47) :=
  StableHlo.after_of_forall_not_mem (b := Proc.devRef .tc main_v47) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep3_main_arg2 : StableHlo.after (hostOps3 (F := F)) W (Proc.devRef .tc main_arg2) = W (Proc.devRef .tc main_arg2) :=
  StableHlo.after_of_forall_not_mem (b := Proc.devRef .tc main_arg2) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep3_main_arg12 : StableHlo.after (hostOps3 (F := F)) W (Proc.devRef .tc main_arg12) = W (Proc.devRef .tc main_arg12) :=
  StableHlo.after_of_forall_not_mem (b := Proc.devRef .tc main_arg12) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keep3_main_arg13 : StableHlo.after (hostOps3 (F := F)) W (Proc.devRef .tc main_arg13) = W (Proc.devRef .tc main_arg13) :=
  StableHlo.after_of_forall_not_mem (b := Proc.devRef .tc main_arg13) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.KernelIdeal.Keeps

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.Region0.lean ====
/-
  The layer kernel's launch 0: what its output array holds after the launch.

  The launch walks ten grid points. At point `t` it fetches rows `5000·t … 5000·t + 4999` of the aggregated features, of
  the reciprocal in-degree column and of the node features, the two weight matrices and the bias row whole, and writes
  back rows `5000·t … 5000·t + 4999` of the output. The body's one store is the layer's expression of what it loaded —
  a row of the result depends on the same row of the three row-indexed inputs only — so the block written back at
  point `t` is block `t` of the layer's expression of the whole input arrays, and since the ten blocks cover all rows
  the output array ends as that expression, whatever the arrays hold when the launch is entered.
-/
import proofs.«105065_j57767310131742_2_alg».proof.Proof.Gen.KernelIdeal.Frame
import proofs.«105065_j57767310131742_2_alg».proof.Proof.Spec
import proofs.«105065_j57767310131742_2_alg».proof.Proof.LibPlainDot
import proofs.«105065_j57767310131742_2_alg».proof.Proof.LibKeepdims
import proofs.«105065_j57767310131742_2_alg».proof.Proof.LibRowBroadcasts
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

/-- The body's stored value at an index: the layer's affine part of the loaded blocks at that row and column, clamped
    below at zero.
    Changes of float format are the identity on exact values; each matrix product into the zero accumulator is its
    plain sum; the column and the row broadcast read their one free coordinate. -/
theorem pay_apply (x0 : Vec Ideal S5000x128 .f32) (x1 : Vec Ideal S5000x1 .f32) (x2 : Vec Ideal S5000x128 .f32)
    (x3 x4 : Vec Ideal S128x128 .f32) (x5 : Vec Ideal S1x128 .f32) (j : S5000x128.Idx) :
    k0_pay1 (F := Ideal) x0 x1 x2 x3 x4 x5 j = max (Layer.affine x0 x1 x2 x3 x4 x5 (j 0) (j 1)) 0 := by
  obtain ⟨p, q, rfl⟩ : ∃ (p : Fin 5000) (q : Fin 128), j = ix2 p q := ⟨j 0, j 1, eq_ix2 j⟩
  unfold k0_pay1 Layer.affine
  simp only [maximumf_apply, addf_apply, broadcast_apply]
  rw [show dot_S5000x128_S128x128_S5000x128_1_0_0_1_n_n = Lib.PlainDot.dims dot_S5000x128_S128x128_S5000x128_1_0_0_1_n_n_wf from rfl]
  rw [Lib.PlainDot.matmul_zero_apply, Lib.PlainDot.matmul_zero_apply, Lib.Rows.bcastRow_apply]
  simp only [truncf_apply, mulf_apply, shapeCast_self, Lib.Keepdims.bcastCol_apply]
  rw [show (FloatOps.ofBits (F := Ideal) FTy.f32 0#32) = 0 from Ideal.ofBits_zero_f32]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked inputs and the output are at block `t` at point `t`,
    the weights and the bias at block 0. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The layer's expression of the arrays as the launch finds them. -/
def G (c : Dev nD) : S50000x128.Idx → Elt Ideal .f32 :=
  Layer.rect (V c main_v21) (V c main_v11) (V c main_arg0) (V c main_arg3) (V c main_arg4) (V c main_v22)

/-- What point `t` writes back is block `t` of the layer's expression of the whole arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz,
    View.ld_unit_zero (S := S1x128) hz]
  obtain ⟨e00, e01, e10, e11, e20, e21, e30, e31, e40, e41, e50, e51, e60, e61⟩ := idx_facts t
  funext j
  refine (pay_apply (iblk0 V c 0 t) (iblk0 V c 1 t) (iblk0 V c 2 t) (iblk0 V c 3 t) (iblk0 V c 4 t) (iblk0 V c 5 t) j).trans ?_
  show _ = max (Layer.affine (V c main_v21) (V c main_v11) (V c main_arg0) (V c main_arg3) (V c main_arg4) (V c main_v22) ((((cfg0.win 6).blk t).view.emb j) 0) ((((cfg0.win 6).blk t).view.emb j) 1)) 0
  refine congrArg (fun x : EReal => max x 0) (Layer.affine_block (V c main_v21) (V c main_v11) (V c main_arg0) (V c main_arg3) (V c main_arg4) (V c main_v22)
    (iblk0 V c 0 t) (iblk0 V c 1 t) (iblk0 V c 2 t) (iblk0 V c 3 t) (iblk0 V c 4 t) (iblk0 V c 5 t) (j 0) _ (j 1) _ ?_ ?_ ?_ ?_ ?_ ?_)
  · intro k
    show V c main_v21 (((cfg0.win 0).blk t).view.emb (ix2 (j 0) k)) = _
    refine congrArg (V c main_v21) (funext fun a => Fin.ext ?_)
    match a with
    | ⟨0, _⟩ => show win0_0.index t (0 : Fin 2) * 5000 + 1 * (j 0).val = win0_6.index t (0 : Fin 2) * 5000 + 1 * (j 0).val; omega
    | ⟨1, _⟩ => show win0_0.index t (1 : Fin 2) * 128 + 1 * k.val = k.val; omega
  · show V c main_v11 (((cfg0.win 1).blk t).view.emb (ix2 (j 0) (0 : Fin 1))) = _
    refine congrArg (V c main_v11) (funext fun a => Fin.ext ?_)
    match a with
    | ⟨0, _⟩ => show win0_1.index t (0 : Fin 2) * 5000 + 1 * (j 0).val = win0_6.index t (0 : Fin 2) * 5000 + 1 * (j 0).val; omega
    | ⟨1, _⟩ => show win0_1.index t (1 : Fin 2) * 1 + 1 * 0 = 0; omega
  · intro k
    show V c main_arg0 (((cfg0.win 2).blk t).view.emb (ix2 (j 0) k)) = _
    refine congrArg (V c main_arg0) (funext fun a => Fin.ext ?_)
    match a with
    | ⟨0, _⟩ => show win0_2.index t (0 : Fin 2) * 5000 + 1 * (j 0).val = win0_6.index t (0 : Fin 2) * 5000 + 1 * (j 0).val; omega
    | ⟨1, _⟩ => show win0_2.index t (1 : Fin 2) * 128 + 1 * k.val = k.val; omega
  · intro k
    show V c main_arg3 (((cfg0.win 3).blk t).view.emb (ix2 k (j 1))) = _
    refine congrArg (V c main_arg3) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_6.index t (1 : Fin 2) * 128 + 1 * (j 1).val; omega
  · intro k
    show V c main_arg4 (((cfg0.win 4).blk t).view.emb (ix2 k (j 1))) = _
    refine congrArg (V c main_arg4) (funext fun a => Fin.ext ?_)
    match a with
    | ⟨0, _⟩ => show win0_4.index t (0 : Fin 2) * 128 + 1 * k.val = k.val; omega
    | ⟨1, _⟩ => show win0_4.index t (1 : Fin 2) * 128 + 1 * (j 1).val = win0_6.index t (1 : Fin 2) * 128 + 1 * (j 1).val; omega
  · show V c main_v22 (((cfg0.win 5).blk t).view.emb (ix2 (0 : Fin 1) (j 1))) = _
    refine congrArg (V c main_v22) (funext fun a => Fin.ext ?_)
    match a with
    | ⟨0, _⟩ => show win0_5.index t (0 : Fin 2) * 1 + 1 * 0 = 0; omega
    | ⟨1, _⟩ => show win0_5.index t (1 : Fin 2) * 128 + 1 * (j 1).val = win0_6.index t (1 : Fin 2) * 128 + 1 * (j 1).val; omega

/-- An index of the output array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v23).slice (win0_6.rect t)).set ↔ _
  rw [View.set_slice_whole, Rect.mem_set_unit]
  exact Iff.rfl

/-- Every row lies in the block of the point numbered by the row's quotient by 5000. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : grid0.N = 10 := N_0
  refine ⟨⟨(i 0).val / 5000, by rw [show cfg0.N = 10 from hN]; omega⟩, flush0_6 _, ?_⟩
  obtain ⟨-, -, -, -, -, -, -, -, -, -, -, -, e60, e61⟩ := idx_facts ⟨(i 0).val / 5000, by rw [show cfg0.N = 10 from hN]; omega⟩
  rw [mem_blk]
  intro a
  match a with
  | ⟨0, _⟩ =>
    show win0_6.index _ (0 : Fin 2) * 5000 ≤ (i 0).val ∧ (i 0).val < win0_6.index _ (0 : Fin 2) * 5000 + 5000
    rw [e60]
    show (i 0).val / 5000 * 5000 ≤ (i 0).val ∧ (i 0).val < (i 0).val / 5000 * 5000 + 5000
    omega
  | ⟨1, _⟩ =>
    show win0_6.index _ (1 : Fin 2) * 128 ≤ (i 1).val ∧ (i 1).val < win0_6.index _ (1 : Fin 2) * 128 + 128
    rw [e61]
    omega

/-- The output array after the launch is the layer's expression of the arrays the launch was entered with. -/
theorem final (c : Dev nD) : (dat0 V c).arrAt 6 cfg0.N = G V c :=
  (dat0 V c).arrAt_eq_of_cover 6 (G V c) (fun t _ => flushed_eq V c t) cover

end Cert.KernelIdeal.Region0

end
-- ==== Proof.Region1.lean ====
/-
  The layer kernel's launch 1: what its output array holds after the launch.

  The launch walks ten grid points. At point `t` it fetches rows `5000·t … 5000·t + 4999` of the aggregated features, of
  the reciprocal in-degree column and of the node features, the two weight matrices and the bias row whole, and writes
  back rows `5000·t … 5000·t + 4999` of the output. The body's one store is the layer's expression of what it loaded —
  a row of the result depends on the same row of the three row-indexed inputs only — so the block written back at
  point `t` is block `t` of the layer's expression of the whole input arrays, and since the ten blocks cover all rows
  the output array ends as that expression, whatever the arrays hold when the launch is entered.
-/
import proofs.«105065_j57767310131742_2_alg».proof.Proof.Gen.KernelIdeal.Frame
import proofs.«105065_j57767310131742_2_alg».proof.Proof.Spec
import proofs.«105065_j57767310131742_2_alg».proof.Proof.LibPlainDot
import proofs.«105065_j57767310131742_2_alg».proof.Proof.LibKeepdims
import proofs.«105065_j57767310131742_2_alg».proof.Proof.LibRowBroadcasts
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

/-- The body's stored value at an index: the layer's affine part of the loaded blocks at that row and column, clamped
    below at zero.
    Changes of float format are the identity on exact values; each matrix product into the zero accumulator is its
    plain sum; the column and the row broadcast read their one free coordinate. -/
theorem pay_apply (x0 : Vec Ideal S5000x128 .f32) (x1 : Vec Ideal S5000x1 .f32) (x2 : Vec Ideal S5000x128 .f32)
    (x3 x4 : Vec Ideal S128x128 .f32) (x5 : Vec Ideal S1x128 .f32) (j : S5000x128.Idx) :
    k1_pay1 (F := Ideal) x0 x1 x2 x3 x4 x5 j = max (Layer.affine x0 x1 x2 x3 x4 x5 (j 0) (j 1)) 0 := by
  obtain ⟨p, q, rfl⟩ : ∃ (p : Fin 5000) (q : Fin 128), j = ix2 p q := ⟨j 0, j 1, eq_ix2 j⟩
  unfold k1_pay1 Layer.affine
  simp only [maximumf_apply, addf_apply, broadcast_apply]
  rw [show dot_S5000x128_S128x128_S5000x128_1_0_0_1_n_n = Lib.PlainDot.dims dot_S5000x128_S128x128_S5000x128_1_0_0_1_n_n_wf from rfl]
  rw [Lib.PlainDot.matmul_zero_apply, Lib.PlainDot.matmul_zero_apply, Lib.Rows.bcastRow_apply]
  simp only [truncf_apply, mulf_apply, shapeCast_self, Lib.Keepdims.bcastCol_apply]
  rw [show (FloatOps.ofBits (F := Ideal) FTy.f32 0#32) = 0 from Ideal.ofBits_zero_f32]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked inputs and the output are at block `t` at point `t`,
    the weights and the bias at block 0. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The layer's expression of the arrays as the launch finds them. -/
def G (c : Dev nD) : S50000x128.Idx → Elt Ideal .f32 :=
  Layer.rect (V c main_v33) (V c main_v11) (V c main_v23) (V c main_arg6) (V c main_arg7) (V c main_v34)

/-- What point `t` writes back is block `t` of the layer's expression of the whole arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz,
    View.ld_unit_zero (S := S1x128) hz]
  obtain ⟨e00, e01, e10, e11, e20, e21, e30, e31, e40, e41, e50, e51, e60, e61⟩ := idx_facts t
  funext j
  refine (pay_apply (iblk1 V c 0 t) (iblk1 V c 1 t) (iblk1 V c 2 t) (iblk1 V c 3 t) (iblk1 V c 4 t) (iblk1 V c 5 t) j).trans ?_
  show _ = max (Layer.affine (V c main_v33) (V c main_v11) (V c main_v23) (V c main_arg6) (V c main_arg7) (V c main_v34) ((((cfg1.win 6).blk t).view.emb j) 0) ((((cfg1.win 6).blk t).view.emb j) 1)) 0
  refine congrArg (fun x : EReal => max x 0) (Layer.affine_block (V c main_v33) (V c main_v11) (V c main_v23) (V c main_arg6) (V c main_arg7) (V c main_v34)
    (iblk1 V c 0 t) (iblk1 V c 1 t) (iblk1 V c 2 t) (iblk1 V c 3 t) (iblk1 V c 4 t) (iblk1 V c 5 t) (j 0) _ (j 1) _ ?_ ?_ ?_ ?_ ?_ ?_)
  · intro k
    show V c main_v33 (((cfg1.win 0).blk t).view.emb (ix2 (j 0) k)) = _
    refine congrArg (V c main_v33) (funext fun a => Fin.ext ?_)
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 128 + 1 * k.val = k.val; omega
  · show V c main_v11 (((cfg1.win 1).blk t).view.emb (ix2 (j 0) (0 : Fin 1))) = _
    refine congrArg (V c main_v11) (funext fun a => Fin.ext ?_)
    match a with
    | ⟨0, _⟩ => show win1_1.index t (0 : Fin 2) * 5000 + 1 * (j 0).val = win1_6.index t (0 : Fin 2) * 5000 + 1 * (j 0).val; omega
    | ⟨1, _⟩ => show win1_1.index t (1 : Fin 2) * 1 + 1 * 0 = 0; omega
  · intro k
    show V c main_v23 (((cfg1.win 2).blk t).view.emb (ix2 (j 0) k)) = _
    refine congrArg (V c main_v23) (funext fun a => Fin.ext ?_)
    match a with
    | ⟨0, _⟩ => show win1_2.index t (0 : Fin 2) * 5000 + 1 * (j 0).val = win1_6.index t (0 : Fin 2) * 5000 + 1 * (j 0).val; omega
    | ⟨1, _⟩ => show win1_2.index t (1 : Fin 2) * 128 + 1 * k.val = k.val; omega
  · intro k
    show V c main_arg6 (((cfg1.win 3).blk t).view.emb (ix2 k (j 1))) = _
    refine congrArg (V c main_arg6) (funext fun a => Fin.ext ?_)
    match a with
    | ⟨0, _⟩ => show win1_3.index t (0 : Fin 2) * 128 + 1 * k.val = k.val; omega
    | ⟨1, _⟩ => show win1_3.index t (1 : Fin 2) * 128 + 1 * (j 1).val = win1_6.index t (1 : Fin 2) * 128 + 1 * (j 1).val; omega
  · intro k
    show V c main_arg7 (((cfg1.win 4).blk t).view.emb (ix2 k (j 1))) = _
    refine congrArg (V c main_arg7) (funext fun a => Fin.ext ?_)
    match a with
    | ⟨0, _⟩ => show win1_4.index t (0 : Fin 2) * 128 + 1 * k.val = k.val; omega
    | ⟨1, _⟩ => show win1_4.index t (1 : Fin 2) * 128 + 1 * (j 1).val = win1_6.index t (1 : Fin 2) * 128 + 1 * (j 1).val; omega
  · show V c main_v34 (((cfg1.win 5).blk t).view.emb (ix2 (0 : Fin 1) (j 1))) = _
    refine congrArg (V c main_v34) (funext fun a => Fin.ext ?_)
    match a with
    | ⟨0, _⟩ => show win1_5.index t (0 : Fin 2) * 1 + 1 * 0 = 0; omega
    | ⟨1, _⟩ => show win1_5.index t (1 : Fin 2) * 128 + 1 * (j 1).val = win1_6.index t (1 : Fin 2) * 128 + 1 * (j 1).val; omega

/-- An index of the output array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v35).slice (win1_6.rect t)).set ↔ _
  rw [View.set_slice_whole, Rect.mem_set_unit]
  exact Iff.rfl

/-- Every row lies in the block of the point numbered by the row's quotient by 5000. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : grid1.N = 10 := N_1
  refine ⟨⟨(i 0).val / 5000, by rw [show cfg1.N = 10 from hN]; omega⟩, flush1_6 _, ?_⟩
  obtain ⟨-, -, -, -, -, -, -, -, -, -, -, -, e60, e61⟩ := idx_facts ⟨(i 0).val / 5000, by rw [show cfg1.N = 10 from hN]; omega⟩
  rw [mem_blk]
  intro a
  match a with
  | ⟨0, _⟩ =>
    show win1_6.index _ (0 : Fin 2) * 5000 ≤ (i 0).val ∧ (i 0).val < win1_6.index _ (0 : Fin 2) * 5000 + 5000
    rw [e60]
    show (i 0).val / 5000 * 5000 ≤ (i 0).val ∧ (i 0).val < (i 0).val / 5000 * 5000 + 5000
    omega
  | ⟨1, _⟩ =>
    show win1_6.index _ (1 : Fin 2) * 128 ≤ (i 1).val ∧ (i 1).val < win1_6.index _ (1 : Fin 2) * 128 + 128
    rw [e61]
    omega

/-- The output array after the launch is the layer's expression of the arrays the launch was entered with. -/
theorem final (c : Dev nD) : (dat1 V c).arrAt 6 cfg1.N = G V c :=
  (dat1 V c).arrAt_eq_of_cover 6 (G V c) (fun t _ => flushed_eq V c t) cover

end Cert.KernelIdeal.Region1

end
-- ==== Proof.Region2.lean ====
/-
  The layer kernel's launch 2: what its output array holds after the launch.

  The launch walks ten grid points. At point `t` it fetches rows `5000·t … 5000·t + 4999` of the aggregated features, of
  the reciprocal in-degree column and of the node features, the two weight matrices and the bias row whole, and writes
  back rows `5000·t … 5000·t + 4999` of the output. The body's one store is the layer's expression of what it loaded —
  a row of the result depends on the same row of the three row-indexed inputs only — so the block written back at
  point `t` is block `t` of the layer's expression of the whole input arrays, and since the ten blocks cover all rows
  the output array ends as that expression, whatever the arrays hold when the launch is entered.
-/
import proofs.«105065_j57767310131742_2_alg».proof.Proof.Gen.KernelIdeal.Frame
import proofs.«105065_j57767310131742_2_alg».proof.Proof.Spec
import proofs.«105065_j57767310131742_2_alg».proof.Proof.LibPlainDot
import proofs.«105065_j57767310131742_2_alg».proof.Proof.LibKeepdims
import proofs.«105065_j57767310131742_2_alg».proof.Proof.LibRowBroadcasts
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

/-- The body's stored value at an index: the layer's affine part of the loaded blocks at that row and column, clamped
    below at zero.
    Changes of float format are the identity on exact values; each matrix product into the zero accumulator is its
    plain sum; the column and the row broadcast read their one free coordinate. -/
theorem pay_apply (x0 : Vec Ideal S5000x128 .f32) (x1 : Vec Ideal S5000x1 .f32) (x2 : Vec Ideal S5000x128 .f32)
    (x3 x4 : Vec Ideal S128x128 .f32) (x5 : Vec Ideal S1x128 .f32) (j : S5000x128.Idx) :
    k2_pay1 (F := Ideal) x0 x1 x2 x3 x4 x5 j = max (Layer.affine x0 x1 x2 x3 x4 x5 (j 0) (j 1)) 0 := by
  obtain ⟨p, q, rfl⟩ : ∃ (p : Fin 5000) (q : Fin 128), j = ix2 p q := ⟨j 0, j 1, eq_ix2 j⟩
  unfold k2_pay1 Layer.affine
  simp only [maximumf_apply, addf_apply, broadcast_apply]
  rw [show dot_S5000x128_S128x128_S5000x128_1_0_0_1_n_n = Lib.PlainDot.dims dot_S5000x128_S128x128_S5000x128_1_0_0_1_n_n_wf from rfl]
  rw [Lib.PlainDot.matmul_zero_apply, Lib.PlainDot.matmul_zero_apply, Lib.Rows.bcastRow_apply]
  simp only [truncf_apply, mulf_apply, shapeCast_self, Lib.Keepdims.bcastCol_apply]
  rw [show (FloatOps.ofBits (F := Ideal) FTy.f32 0#32) = 0 from Ideal.ofBits_zero_f32]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked inputs and the output are at block `t` at point `t`,
    the weights and the bias at block 0. -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The layer's expression of the arrays as the launch finds them. -/
def G (c : Dev nD) : S50000x128.Idx → Elt Ideal .f32 :=
  Layer.rect (V c main_v45) (V c main_v11) (V c main_v35) (V c main_arg9) (V c main_arg10) (V c main_v46)

/-- What point `t` writes back is block `t` of the layer's expression of the whole arrays. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz, View.ld_unit_zero (S := S128x128) hz,
    View.ld_unit_zero (S := S1x128) hz]
  obtain ⟨e00, e01, e10, e11, e20, e21, e30, e31, e40, e41, e50, e51, e60, e61⟩ := idx_facts t
  funext j
  refine (pay_apply (iblk2 V c 0 t) (iblk2 V c 1 t) (iblk2 V c 2 t) (iblk2 V c 3 t) (iblk2 V c 4 t) (iblk2 V c 5 t) j).trans ?_
  show _ = max (Layer.affine (V c main_v45) (V c main_v11) (V c main_v35) (V c main_arg9) (V c main_arg10) (V c main_v46) ((((cfg2.win 6).blk t).view.emb j) 0) ((((cfg2.win 6).blk t).view.emb j) 1)) 0
  refine congrArg (fun x : EReal => max x 0) (Layer.affine_block (V c main_v45) (V c main_v11) (V c main_v35) (V c main_arg9) (V c main_arg10) (V c main_v46)
    (iblk2 V c 0 t) (iblk2 V c 1 t) (iblk2 V c 2 t) (iblk2 V c 3 t) (iblk2 V c 4 t) (iblk2 V c 5 t) (j 0) _ (j 1) _ ?_ ?_ ?_ ?_ ?_ ?_)
  · intro k
    show V c main_v45 (((cfg2.win 0).blk t).view.emb (ix2 (j 0) k)) = _
    refine congrArg (V c main_v45) (funext fun a => Fin.ext ?_)
    match a with
    | ⟨0, _⟩ => show win2_0.index t (0 : Fin 2) * 5000 + 1 * (j 0).val = win2_6.index t (0 : Fin 2) * 5000 + 1 * (j 0).val; omega
    | ⟨1, _⟩ => show win2_0.index t (1 : Fin 2) * 128 + 1 * k.val = k.val; omega
  · show V c main_v11 (((cfg2.win 1).blk t).view.emb (ix2 (j 0) (0 : Fin 1))) = _
    refine congrArg (V c main_v11) (funext fun a => Fin.ext ?_)
    match a with
    | ⟨0, _⟩ => show win2_1.index t (0 : Fin 2) * 5000 + 1 * (j 0).val = win2_6.index t (0 : Fin 2) * 5000 + 1 * (j 0).val; omega
    | ⟨1, _⟩ => show win2_1.index t (1 : Fin 2) * 1 + 1 * 0 = 0; omega
  · intro k
    show V c main_v35 (((cfg2.win 2).blk t).view.emb (ix2 (j 0) k)) = _
    refine congrArg (V c main_v35) (funext fun a => Fin.ext ?_)
    match a with
    | ⟨0, _⟩ => show win2_2.index t (0 : Fin 2) * 5000 + 1 * (j 0).val = win2_6.index t (0 : Fin 2) * 5000 + 1 * (j 0).val; omega
    | ⟨1, _⟩ => show win2_2.index t (1 : Fin 2) * 128 + 1 * k.val = k.val; omega
  · intro k
    show V c main_arg9 (((cfg2.win 3).blk t).view.emb (ix2 k (j 1))) = _
    refine congrArg (V c main_arg9) (funext fun a => Fin.ext ?_)
    match a with
    | ⟨0, _⟩ => show win2_3.index t (0 : Fin 2) * 128 + 1 * k.val = k.val; omega
    | ⟨1, _⟩ => show win2_3.index t (1 : Fin 2) * 128 + 1 * (j 1).val = win2_6.index t (1 : Fin 2) * 128 + 1 * (j 1).val; omega
  · intro k
    show V c main_arg10 (((cfg2.win 4).blk t).view.emb (ix2 k (j 1))) = _
    refine congrArg (V c main_arg10) (funext fun a => Fin.ext ?_)
    match a with
    | ⟨0, _⟩ => show win2_4.index t (0 : Fin 2) * 128 + 1 * k.val = k.val; omega
    | ⟨1, _⟩ => show win2_4.index t (1 : Fin 2) * 128 + 1 * (j 1).val = win2_6.index t (1 : Fin 2) * 128 + 1 * (j 1).val; omega
  · show V c main_v46 (((cfg2.win 5).blk t).view.emb (ix2 (0 : Fin 1) (j 1))) = _
    refine congrArg (V c main_v46) (funext fun a => Fin.ext ?_)
    match a with
    | ⟨0, _⟩ => show win2_5.index t (0 : Fin 2) * 1 + 1 * 0 = 0; omega
    | ⟨1, _⟩ => show win2_5.index t (1 : Fin 2) * 128 + 1 * (j 1).val = win2_6.index t (1 : Fin 2) * 128 + 1 * (j 1).val; omega

/-- An index of the output array is in point `t`'s block iff each coordinate is in the block's range on its axis. -/
theorem mem_blk (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v47).slice (win2_6.rect t)).set ↔ _
  rw [View.set_slice_whole, Rect.mem_set_unit]
  exact Iff.rfl

/-- Every row lies in the block of the point numbered by the row's quotient by 5000. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : grid2.N = 10 := N_2
  refine ⟨⟨(i 0).val / 5000, by rw [show cfg2.N = 10 from hN]; omega⟩, flush2_6 _, ?_⟩
  obtain ⟨-, -, -, -, -, -, -, -, -, -, -, -, e60, e61⟩ := idx_facts ⟨(i 0).val / 5000, by rw [show cfg2.N = 10 from hN]; omega⟩
  rw [mem_blk]
  intro a
  match a with
  | ⟨0, _⟩ =>
    show win2_6.index _ (0 : Fin 2) * 5000 ≤ (i 0).val ∧ (i 0).val < win2_6.index _ (0 : Fin 2) * 5000 + 5000
    rw [e60]
    show (i 0).val / 5000 * 5000 ≤ (i 0).val ∧ (i 0).val < (i 0).val / 5000 * 5000 + 5000
    omega
  | ⟨1, _⟩ =>
    show win2_6.index _ (1 : Fin 2) * 128 ≤ (i 1).val ∧ (i 1).val < win2_6.index _ (1 : Fin 2) * 128 + 128
    rw [e61]
    omega

/-- The output array after the launch is the layer's expression of the arrays the launch was entered with. -/
theorem final (c : Dev nD) : (dat2 V c).arrAt 6 cfg2.N = G V c :=
  (dat2 V c).arrAt_eq_of_cover 6 (G V c) (fun t _ => flushed_eq V c t) cover

end Cert.KernelIdeal.Region2

end
-- ==== Proof.Region3.lean ====
/-
  The layer kernel's launch 3: what its output array holds after the launch.

  The launch walks ten grid points. At point `t` it fetches rows `5000·t … 5000·t + 4999` of the aggregated features, of
  the reciprocal in-degree column and of the node features, the two weight matrices and the bias row whole, and writes
  back rows `5000·t … 5000·t + 4999` of the output. The body's one store is the layer's expression of what it loaded —
  a row of the result depends on the same row of the three row-indexed inputs only — so the block written back at
  point `t` is block `t` of the layer's expression of the whole input arrays, and since the ten blocks cover all rows
  the output array ends as that expression, whatever the arrays hold when the launch is entered.
-/
import proofs.«105065_j57767310131742_2_alg».proof.Proof.Gen.KernelIdeal.Frame
import proofs.«105065_j57767310131742_2_alg».proof.Proof.Spec
import proofs.«105065_j57767310131742_2_alg».proof.Proof.LibPlainDot
import proofs.«105065_j57767310131742_2_alg».proof.Proof.LibKeepdims
import proofs.«105065_j57767310131742_2_alg».proof.Proof.LibRowBroadcasts
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

/-- The body's stored value at an index: the layer's affine part of the loaded blocks at that row and column.
    Changes of float format are the identity on exact values; each matrix product into the zero accumulator is its
    plain sum; the column and the row broadcast read their one free coordinate. -/
theorem pay_apply (x0 : Vec Ideal S5000x128 .f32) (x1 : Vec Ideal S5000x1 .f32) (x2 : Vec Ideal S5000x128 .f32)
    (x3 x4 : Vec Ideal S128x2 .f32) (x5 : Vec Ideal S1x2 .f32) (j : S5000x2.Idx) :
    k3_pay1 (F := Ideal) x0 x1 x2 x3 x4 x5 j = Layer.affine x0 x1 x2 x3 x4 x5 (j 0) (j 1) := by
  obtain ⟨p, q, rfl⟩ : ∃ (p : Fin 5000) (q : Fin 2), j = ix2 p q := ⟨j 0, j 1, eq_ix2 j⟩
  unfold k3_pay1 Layer.affine
  simp only [addf_apply]
  rw [show dot_S5000x128_S128x2_S5000x2_1_0_0_1_n_n = Lib.PlainDot.dims dot_S5000x128_S128x2_S5000x2_1_0_0_1_n_n_wf from rfl]
  rw [Lib.PlainDot.matmul_zero_apply, Lib.PlainDot.matmul_zero_apply, Lib.Rows.bcastRow_apply]
  simp only [truncf_apply, mulf_apply, shapeCast_self, Lib.Keepdims.bcastCol_apply]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked inputs and the output are at block `t` at point `t`,
    the weights and the bias at block 0. -/
theorem idx_facts : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The layer's expression of the arrays as the launch finds them. -/
def G (c : Dev nD) : S50000x2.Idx → Elt Ideal .f32 :=
  Layer.lin (V c main_v57) (V c main_v11) (V c main_v47) (V c main_arg12) (V c main_arg13) (V c main_v58)

/-- What point `t` writes back is block `t` of the layer's expression of the whole arrays. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S5000x128) hz, View.ld_unit_zero (S := S5000x1) hz, View.ld_unit_zero (S := S128x2) hz,
    View.ld_unit_zero (S := S1x2) hz]
  obtain ⟨e00, e01, e10, e11, e20, e21, e30, e31, e40, e41, e50, e51, e60, e61⟩ := idx_facts t
  funext j
  refine (pay_apply (iblk3 V c 0 t) (iblk3 V c 1 t) (iblk3 V c 2 t) (iblk3 V c 3 t) (iblk3 V c 4 t) (iblk3 V c 5 t) j).trans ?_
  show _ = Layer.affine (V c main_v57) (V c main_v11) (V c main_v47) (V c main_arg12) (V c main_arg13) (V c main_v58) ((((cfg3.win 6).blk t).view.emb j) 0) ((((cfg3.win 6).blk t).view.emb j) 1)
  refine (Layer.affine_block (V c main_v57) (V c main_v11) (V c main_v47) (V c main_arg12) (V c main_arg13) (V c main_v58)
    (iblk3 V c 0 t) (iblk3 V c 1 t) (iblk3 V c 2 t) (iblk3 V c 3 t) (iblk3 V c 4 t) (iblk3 V c 5 t) (j 0) _ (j 1) _ ?_ ?_ ?_ ?_ ?_ ?_)
  · intro k
    show V c main_v57 (((cfg3.win 0).blk t).view.emb (ix2 (j 0) k)) = _
    refine congrArg (V c main_v57) (funext fun a => Fin.ext ?_)
    match a with
    | ⟨0, _⟩ => show win3_0.index t (0 : Fin 2) * 5000 + 1 * (j 0).val = win3_6.index t (0 : Fin 2) * 5000 + 1 * (j 0).val; omega
    | ⟨1, _⟩ => show win3_0.index t (1 : Fin 2) * 128 + 1 * k.val = k.val; omega
  · show V c main_v11 (((cfg3.win 1).blk t).view.emb (ix2 (j 0) (0 : Fin 1))) = _
    refine congrArg (V c main_v11) (funext fun a => Fin.ext ?_)
    match a with
    | ⟨0, _⟩ => show win3_1.index t (0 : Fin 2) * 5000 + 1 * (j 0).val = win3_6.index t (0 : Fin 2) * 5000 + 1 * (j 0).val; omega
    | ⟨1, _⟩ => show win3_1.index t (1 : Fin 2) * 1 + 1 * 0 = 0; omega
  · intro k
    show V c main_v47 (((cfg3.win 2).blk t).view.emb (ix2 (j 0) k)) = _
    refine congrArg (V c main_v47) (funext fun a => Fin.ext ?_)
    match a with
    | ⟨0, _⟩ => show win3_2.index t (0 : Fin 2) * 5000 + 1 * (j 0).val = win3_6.index t (0 : Fin 2) * 5000 + 1 * (j 0).val; omega
    | ⟨1, _⟩ => show win3_2.index t (1 : Fin 2) * 128 + 1 * k.val = k.val; omega
  · intro k
    show V c main_arg12 (((cfg3.win 3).blk t).view.emb (ix2 k (j 1))) = _
    refine congrArg (V c main_arg12) (funext fun a => Fin.ext ?_)
    match a with
    | ⟨0, _⟩ => show win3_3.index t (0 : Fin 2) * 128 + 1 * k.val = k.val; omega
    | ⟨1, _⟩ => show win3_3.index t (1 : Fin 2) * 2 + 1 * (j 1).val = win3_6.index t (1 : Fin 2) * 2 + 1 * (j 1).val; omega
  · intro k
    show V c main_arg13 (((cfg3.win 4).blk t).view.emb (ix2 k (j 1))) = _
    refine congrArg (V c main_arg13) (funext fun a => Fin.ext ?_)
    match a with
    | ⟨0, _⟩ => show win3_4.index t (0 : Fin 2) * 128 + 1 * k.val = k.val; omega
    | ⟨1, _⟩ => show win3_4.index t (1 : Fin 2) * 2 + 1 * (j 1).val = win3_6.index t (1 : Fin 2) * 2 + 1 * (j 1).val; omega
  · show V c main_v58 (((cfg3.win 5).blk t).view.emb (ix2 (0 : Fin 1) (j 1))) = _
    refine congrArg (V c main_v58) (funext fun a => Fin.ext ?_)
    match a with
    | ⟨0, _⟩ => show win3_5.index t (0 : Fin 2) * 1 + 1 * 0 = 0; omega
    | ⟨1, _⟩ => show win3_5.index t (1 : Fin 2) * 2 + 1 * (j 1).val = win3_6.index t (1 : Fin 2) * 2 + 1 * (j 1).val; omega

/-- An index of the output array is in point `t`'s block iff each coordinate is in the block's range on its axis. -/
theorem mem_blk (t : Fin cfg3.N) (i : S50000x2.Idx) :
    i ∈ ((cfg3.win 6).blk t).view.set ↔ ∀ a : Fin 2, win3_6.index t a * S5000x2.size a ≤ (i a).val
      ∧ (i a).val < win3_6.index t a * S5000x2.size a + S5000x2.size a := by
  show i ∈ ((View.whole main_v59).slice (win3_6.rect t)).set ↔ _
  rw [View.set_slice_whole, Rect.mem_set_unit]
  exact Iff.rfl

/-- Every row lies in the block of the point numbered by the row's quotient by 5000. -/
theorem cover (i : S50000x2.Idx) :
    ∃ t : Fin cfg3.N, (cfg3.win 6).flush t = true ∧ i ∈ ((cfg3.win 6).blk t).view.set := by
  have hi0 : (i 0).val < 50000 := (i 0).isLt
  have hi1 : (i 1).val < 2 := (i 1).isLt
  have hN : grid3.N = 10 := N_3
  refine ⟨⟨(i 0).val / 5000, by rw [show cfg3.N = 10 from hN]; omega⟩, flush3_6 _, ?_⟩
  obtain ⟨-, -, -, -, -, -, -, -, -, -, -, -, e60, e61⟩ := idx_facts ⟨(i 0).val / 5000, by rw [show cfg3.N = 10 from hN]; omega⟩
  rw [mem_blk]
  intro a
  match a with
  | ⟨0, _⟩ =>
    show win3_6.index _ (0 : Fin 2) * 5000 ≤ (i 0).val ∧ (i 0).val < win3_6.index _ (0 : Fin 2) * 5000 + 5000
    rw [e60]
    show (i 0).val / 5000 * 5000 ≤ (i 0).val ∧ (i 0).val < (i 0).val / 5000 * 5000 + 5000
    omega
  | ⟨1, _⟩ =>
    show win3_6.index _ (1 : Fin 2) * 2 ≤ (i 1).val ∧ (i 1).val < win3_6.index _ (1 : Fin 2) * 2 + 2
    rw [e61]
    omega

/-- The output array after the launch is the layer's expression of the arrays the launch was entered with. -/
theorem final (c : Dev nD) : (dat3 V c).arrAt 6 cfg3.N = G V c :=
  (dat3 V c).arrAt_eq_of_cover 6 (G V c) (fun t _ => flushed_eq V c t) cover

end Cert.KernelIdeal.Region3

end
-- ==== Proof.Walk.lean ====
/-
  The idealized kernel program's result as a function of its arguments.

  The fold through @main's nine segments is followed buffer by buffer. The first stretch of host operations leaves the
  edge list's two rows, the reciprocal in-degree column, the first neighbour sum and the first bias row; each launch
  leaves, in its output array, the layer's expression of the six arrays it was entered with, and leaves every other
  buffer as it was; each later stretch leaves the next neighbour sum, computed from the previous launch's output, and
  the next bias row; nothing writes an argument. So the four launches' outputs are the four layers composed, and the
  result buffer ends at the pooling of the fourth by graph.
-/
import proofs.«105065_j57767310131742_2_alg».proof.Proof.Gen.KernelIdeal.Frame
import proofs.«105065_j57767310131742_2_alg».proof.Proof.Spec
import proofs.«105065_j57767310131742_2_alg».proof.Proof.KHost
import proofs.«105065_j57767310131742_2_alg».proof.Proof.HostOps
import proofs.«105065_j57767310131742_2_alg».proof.Proof.Keeps
import proofs.«105065_j57767310131742_2_alg».proof.Proof.Region0
import proofs.«105065_j57767310131742_2_alg».proof.Proof.Region1
import proofs.«105065_j57767310131742_2_alg».proof.Proof.Region2
import proofs.«105065_j57767310131742_2_alg».proof.Proof.Region3

set_option maxRecDepth 16384

noncomputable section

namespace Cert.KernelIdeal.Walk

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- Each edge's source node, from the edge-list argument. -/
abbrev src : (⟨S600000, .i32⟩ : BufTy).Contents (Elt Ideal) := Host.src (m ((c : Thread nD τ).loc main_arg1))
/-- Each edge's destination node. -/
abbrev dst : (⟨S600000, .i32⟩ : BufTy).Contents (Elt Ideal) := Host.dst (m ((c : Thread nD τ).loc main_arg1))
/-- The reciprocal in-degree column. -/
abbrev dinv : (⟨S50000x1, .f32⟩ : BufTy).Contents (Elt Ideal) := Host.dinv (dst m c)

/-- The first layer's output: the layer's expression of the input features. -/
abbrev H1 : S50000x128.Idx → Elt Ideal .f32 :=
  Layer.rect (Host.agg (m ((c : Thread nD τ).loc main_arg0)) (src m c) (dst m c)) (dinv m c) (m ((c : Thread nD τ).loc main_arg0)) (m ((c : Thread nD τ).loc main_arg3)) (m ((c : Thread nD τ).loc main_arg4)) (Host.brow (m ((c : Thread nD τ).loc main_arg5)))
/-- The second layer's output. -/
abbrev H2 : S50000x128.Idx → Elt Ideal .f32 :=
  Layer.rect (Host.agg (H1 m c) (src m c) (dst m c)) (dinv m c) (H1 m c) (m ((c : Thread nD τ).loc main_arg6)) (m ((c : Thread nD τ).loc main_arg7)) (Host.brow (m ((c : Thread nD τ).loc main_arg8)))
/-- The third layer's output. -/
abbrev H3 : S50000x128.Idx → Elt Ideal .f32 :=
  Layer.rect (Host.agg (H2 m c) (src m c) (dst m c)) (dinv m c) (H2 m c) (m ((c : Thread nD τ).loc main_arg9)) (m ((c : Thread nD τ).loc main_arg10)) (Host.brow (m ((c : Thread nD τ).loc main_arg11)))
/-- The fourth layer's output, two channels, not clamped. -/
abbrev H4 : S50000x2.Idx → Elt Ideal .f32 :=
  Layer.lin (Host.agg (H3 m c) (src m c) (dst m c)) (dinv m c) (H3 m c) (m ((c : Thread nD τ).loc main_arg12)) (m ((c : Thread nD τ).loc main_arg13)) (Host.brow2 (m ((c : Thread nD τ).loc main_arg14)))

theorem W1_v1 : W1 m ρ c (Proc.devRef .tc main_v1) = src m c :=
  HostOps.ops0_main_v1 (W0 m ρ c)

theorem W1_v3 : W1 m ρ c (Proc.devRef .tc main_v3) = dst m c :=
  HostOps.ops0_main_v3 (W0 m ρ c)

theorem W1_v11 : W1 m ρ c (Proc.devRef .tc main_v11) = dinv m c :=
  HostOps.ops0_main_v11 (W0 m ρ c)

theorem W1_v21 : W1 m ρ c (Proc.devRef .tc main_v21) = Host.agg (m ((c : Thread nD τ).loc main_arg0)) (src m c) (dst m c) :=
  HostOps.ops0_main_v21 (W0 m ρ c)

theorem W1_v22 : W1 m ρ c (Proc.devRef .tc main_v22) = Host.brow (m ((c : Thread nD τ).loc main_arg5)) :=
  HostOps.ops0_main_v22 (W0 m ρ c)

theorem W1_arg0 : W1 m ρ c (Proc.devRef .tc main_arg0) = (m ((c : Thread nD τ).loc main_arg0)) :=
  Keeps.keep0_main_arg0 (W0 m ρ c)

theorem W1_arg2 : W1 m ρ c (Proc.devRef .tc main_arg2) = (m ((c : Thread nD τ).loc main_arg2)) :=
  Keeps.keep0_main_arg2 (W0 m ρ c)

theorem W1_arg3 : W1 m ρ c (Proc.devRef .tc main_arg3) = (m ((c : Thread nD τ).loc main_arg3)) :=
  Keeps.keep0_main_arg3 (W0 m ρ c)

theorem W1_arg4 : W1 m ρ c (Proc.devRef .tc main_arg4) = (m ((c : Thread nD τ).loc main_arg4)) :=
  Keeps.keep0_main_arg4 (W0 m ρ c)

theorem W1_arg6 : W1 m ρ c (Proc.devRef .tc main_arg6) = (m ((c : Thread nD τ).loc main_arg6)) :=
  Keeps.keep0_main_arg6 (W0 m ρ c)

theorem W1_arg7 : W1 m ρ c (Proc.devRef .tc main_arg7) = (m ((c : Thread nD τ).loc main_arg7)) :=
  Keeps.keep0_main_arg7 (W0 m ρ c)

theorem W1_arg8 : W1 m ρ c (Proc.devRef .tc main_arg8) = (m ((c : Thread nD τ).loc main_arg8)) :=
  Keeps.keep0_main_arg8 (W0 m ρ c)

theorem W1_arg9 : W1 m ρ c (Proc.devRef .tc main_arg9) = (m ((c : Thread nD τ).loc main_arg9)) :=
  Keeps.keep0_main_arg9 (W0 m ρ c)

theorem W1_arg10 : W1 m ρ c (Proc.devRef .tc main_arg10) = (m ((c : Thread nD τ).loc main_arg10)) :=
  Keeps.keep0_main_arg10 (W0 m ρ c)

theorem W1_arg11 : W1 m ρ c (Proc.devRef .tc main_arg11) = (m ((c : Thread nD τ).loc main_arg11)) :=
  Keeps.keep0_main_arg11 (W0 m ρ c)

theorem W1_arg12 : W1 m ρ c (Proc.devRef .tc main_arg12) = (m ((c : Thread nD τ).loc main_arg12)) :=
  Keeps.keep0_main_arg12 (W0 m ρ c)

theorem W1_arg13 : W1 m ρ c (Proc.devRef .tc main_arg13) = (m ((c : Thread nD τ).loc main_arg13)) :=
  Keeps.keep0_main_arg13 (W0 m ρ c)

theorem W1_arg14 : W1 m ρ c (Proc.devRef .tc main_arg14) = (m ((c : Thread nD τ).loc main_arg14)) :=
  Keeps.keep0_main_arg14 (W0 m ρ c)

theorem W2_v23 : W2 m ρ c (Proc.devRef .tc main_v23) = H1 m c := by
  refine (W2_arr m ρ c 6).trans ((Region0.final (V1 m ρ) c).trans ?_)
  show Layer.rect (W1 m ρ c (Proc.devRef .tc main_v21)) (W1 m ρ c (Proc.devRef .tc main_v11)) (W1 m ρ c (Proc.devRef .tc main_arg0)) (W1 m ρ c (Proc.devRef .tc main_arg3)) (W1 m ρ c (Proc.devRef .tc main_arg4)) (W1 m ρ c (Proc.devRef .tc main_v22)) = _
  rw [W1_v21 m ρ c, W1_v11 m ρ c, W1_arg0 m ρ c, W1_arg3 m ρ c, W1_arg4 m ρ c, W1_v22 m ρ c]

theorem W2_v11 : W2 m ρ c (Proc.devRef .tc main_v11) = dinv m c :=
  (W2_arr m ρ c 1).trans (((dat0 (V1 m ρ) c).arrAt_in 1 rfl _).trans ((A_eq0 (V1 m ρ) c 1).trans (W1_v11 m ρ c)))

theorem W2_v1 : W2 m ρ c (Proc.devRef .tc main_v1) = src m c :=
  (W2_of_ne m ρ c main_v1 (by decide)).trans (W1_v1 m ρ c)

theorem W2_v3 : W2 m ρ c (Proc.devRef .tc main_v3) = dst m c :=
  (W2_of_ne m ρ c main_v3 (by decide)).trans (W1_v3 m ρ c)

theorem W2_arg2 : W2 m ρ c (Proc.devRef .tc main_arg2) = (m ((c : Thread nD τ).loc main_arg2)) :=
  (W2_of_ne m ρ c main_arg2 (by decide)).trans (W1_arg2 m ρ c)

theorem W2_arg6 : W2 m ρ c (Proc.devRef .tc main_arg6) = (m ((c : Thread nD τ).loc main_arg6)) :=
  (W2_of_ne m ρ c main_arg6 (by decide)).trans (W1_arg6 m ρ c)

theorem W2_arg7 : W2 m ρ c (Proc.devRef .tc main_arg7) = (m ((c : Thread nD τ).loc main_arg7)) :=
  (W2_of_ne m ρ c main_arg7 (by decide)).trans (W1_arg7 m ρ c)

theorem W2_arg8 : W2 m ρ c (Proc.devRef .tc main_arg8) = (m ((c : Thread nD τ).loc main_arg8)) :=
  (W2_of_ne m ρ c main_arg8 (by decide)).trans (W1_arg8 m ρ c)

theorem W2_arg9 : W2 m ρ c (Proc.devRef .tc main_arg9) = (m ((c : Thread nD τ).loc main_arg9)) :=
  (W2_of_ne m ρ c main_arg9 (by decide)).trans (W1_arg9 m ρ c)

theorem W2_arg10 : W2 m ρ c (Proc.devRef .tc main_arg10) = (m ((c : Thread nD τ).loc main_arg10)) :=
  (W2_of_ne m ρ c main_arg10 (by decide)).trans (W1_arg10 m ρ c)

theorem W2_arg11 : W2 m ρ c (Proc.devRef .tc main_arg11) = (m ((c : Thread nD τ).loc main_arg11)) :=
  (W2_of_ne m ρ c main_arg11 (by decide)).trans (W1_arg11 m ρ c)

theorem W2_arg12 : W2 m ρ c (Proc.devRef .tc main_arg12) = (m ((c : Thread nD τ).loc main_arg12)) :=
  (W2_of_ne m ρ c main_arg12 (by decide)).trans (W1_arg12 m ρ c)

theorem W2_arg13 : W2 m ρ c (Proc.devRef .tc main_arg13) = (m ((c : Thread nD τ).loc main_arg13)) :=
  (W2_of_ne m ρ c main_arg13 (by decide)).trans (W1_arg13 m ρ c)

theorem W2_arg14 : W2 m ρ c (Proc.devRef .tc main_arg14) = (m ((c : Thread nD τ).loc main_arg14)) :=
  (W2_of_ne m ρ c main_arg14 (by decide)).trans (W1_arg14 m ρ c)

theorem W3_v33 : W3 m ρ c (Proc.devRef .tc main_v33) = Host.agg (H1 m c) (src m c) (dst m c) :=
  (HostOps.ops1_main_v33 (W2 m ρ c)).trans (by rw [W2_v23 m ρ c, W2_v1 m ρ c, W2_v3 m ρ c])

theorem W3_v34 : W3 m ρ c (Proc.devRef .tc main_v34) = Host.brow (m ((c : Thread nD τ).loc main_arg8)) :=
  (HostOps.ops1_main_v34 (W2 m ρ c)).trans (by rw [W2_arg8 m ρ c])

theorem W3_v1 : W3 m ρ c (Proc.devRef .tc main_v1) = src m c :=
  (Keeps.keep1_main_v1 (W2 m ρ c)).trans (W2_v1 m ρ c)

theorem W3_v3 : W3 m ρ c (Proc.devRef .tc main_v3) = dst m c :=
  (Keeps.keep1_main_v3 (W2 m ρ c)).trans (W2_v3 m ρ c)

theorem W3_v11 : W3 m ρ c (Proc.devRef .tc main_v11) = dinv m c :=
  (Keeps.keep1_main_v11 (W2 m ρ c)).trans (W2_v11 m ρ c)

theorem W3_v23 : W3 m ρ c (Proc.devRef .tc main_v23) = H1 m c :=
  (Keeps.keep1_main_v23 (W2 m ρ c)).trans (W2_v23 m ρ c)

theorem W3_arg2 : W3 m ρ c (Proc.devRef .tc main_arg2) = (m ((c : Thread nD τ).loc main_arg2)) :=
  (Keeps.keep1_main_arg2 (W2 m ρ c)).trans (W2_arg2 m ρ c)

theorem W3_arg6 : W3 m ρ c (Proc.devRef .tc main_arg6) = (m ((c : Thread nD τ).loc main_arg6)) :=
  (Keeps.keep1_main_arg6 (W2 m ρ c)).trans (W2_arg6 m ρ c)

theorem W3_arg7 : W3 m ρ c (Proc.devRef .tc main_arg7) = (m ((c : Thread nD τ).loc main_arg7)) :=
  (Keeps.keep1_main_arg7 (W2 m ρ c)).trans (W2_arg7 m ρ c)

theorem W3_arg9 : W3 m ρ c (Proc.devRef .tc main_arg9) = (m ((c : Thread nD τ).loc main_arg9)) :=
  (Keeps.keep1_main_arg9 (W2 m ρ c)).trans (W2_arg9 m ρ c)

theorem W3_arg10 : W3 m ρ c (Proc.devRef .tc main_arg10) = (m ((c : Thread nD τ).loc main_arg10)) :=
  (Keeps.keep1_main_arg10 (W2 m ρ c)).trans (W2_arg10 m ρ c)

theorem W3_arg11 : W3 m ρ c (Proc.devRef .tc main_arg11) = (m ((c : Thread nD τ).loc main_arg11)) :=
  (Keeps.keep1_main_arg11 (W2 m ρ c)).trans (W2_arg11 m ρ c)

theorem W3_arg12 : W3 m ρ c (Proc.devRef .tc main_arg12) = (m ((c : Thread nD τ).loc main_arg12)) :=
  (Keeps.keep1_main_arg12 (W2 m ρ c)).trans (W2_arg12 m ρ c)

theorem W3_arg13 : W3 m ρ c (Proc.devRef .tc main_arg13) = (m ((c : Thread nD τ).loc main_arg13)) :=
  (Keeps.keep1_main_arg13 (W2 m ρ c)).trans (W2_arg13 m ρ c)

theorem W3_arg14 : W3 m ρ c (Proc.devRef .tc main_arg14) = (m ((c : Thread nD τ).loc main_arg14)) :=
  (Keeps.keep1_main_arg14 (W2 m ρ c)).trans (W2_arg14 m ρ c)

theorem W4_v35 : W4 m ρ c (Proc.devRef .tc main_v35) = H2 m c := by
  refine (W4_arr m ρ c 6).trans ((Region1.final (V3 m ρ) c).trans ?_)
  show Layer.rect (W3 m ρ c (Proc.devRef .tc main_v33)) (W3 m ρ c (Proc.devRef .tc main_v11)) (W3 m ρ c (Proc.devRef .tc main_v23)) (W3 m ρ c (Proc.devRef .tc main_arg6)) (W3 m ρ c (Proc.devRef .tc main_arg7)) (W3 m ρ c (Proc.devRef .tc main_v34)) = _
  rw [W3_v33 m ρ c, W3_v11 m ρ c, W3_v23 m ρ c, W3_arg6 m ρ c, W3_arg7 m ρ c, W3_v34 m ρ c]

theorem W4_v11 : W4 m ρ c (Proc.devRef .tc main_v11) = dinv m c :=
  (W4_arr m ρ c 1).trans (((dat1 (V3 m ρ) c).arrAt_in 1 rfl _).trans ((A_eq1 (V3 m ρ) c 1).trans (W3_v11 m ρ c)))

theorem W4_v1 : W4 m ρ c (Proc.devRef .tc main_v1) = src m c :=
  (W4_of_ne m ρ c main_v1 (by decide)).trans (W3_v1 m ρ c)

theorem W4_v3 : W4 m ρ c (Proc.devRef .tc main_v3) = dst m c :=
  (W4_of_ne m ρ c main_v3 (by decide)).trans (W3_v3 m ρ c)

theorem W4_arg2 : W4 m ρ c (Proc.devRef .tc main_arg2) = (m ((c : Thread nD τ).loc main_arg2)) :=
  (W4_of_ne m ρ c main_arg2 (by decide)).trans (W3_arg2 m ρ c)

theorem W4_arg9 : W4 m ρ c (Proc.devRef .tc main_arg9) = (m ((c : Thread nD τ).loc main_arg9)) :=
  (W4_of_ne m ρ c main_arg9 (by decide)).trans (W3_arg9 m ρ c)

theorem W4_arg10 : W4 m ρ c (Proc.devRef .tc main_arg10) = (m ((c : Thread nD τ).loc main_arg10)) :=
  (W4_of_ne m ρ c main_arg10 (by decide)).trans (W3_arg10 m ρ c)

theorem W4_arg11 : W4 m ρ c (Proc.devRef .tc main_arg11) = (m ((c : Thread nD τ).loc main_arg11)) :=
  (W4_of_ne m ρ c main_arg11 (by decide)).trans (W3_arg11 m ρ c)

theorem W4_arg12 : W4 m ρ c (Proc.devRef .tc main_arg12) = (m ((c : Thread nD τ).loc main_arg12)) :=
  (W4_of_ne m ρ c main_arg12 (by decide)).trans (W3_arg12 m ρ c)

theorem W4_arg13 : W4 m ρ c (Proc.devRef .tc main_arg13) = (m ((c : Thread nD τ).loc main_arg13)) :=
  (W4_of_ne m ρ c main_arg13 (by decide)).trans (W3_arg13 m ρ c)

theorem W4_arg14 : W4 m ρ c (Proc.devRef .tc main_arg14) = (m ((c : Thread nD τ).loc main_arg14)) :=
  (W4_of_ne m ρ c main_arg14 (by decide)).trans (W3_arg14 m ρ c)

theorem W5_v45 : W5 m ρ c (Proc.devRef .tc main_v45) = Host.agg (H2 m c) (src m c) (dst m c) :=
  (HostOps.ops2_main_v45 (W4 m ρ c)).trans (by rw [W4_v35 m ρ c, W4_v1 m ρ c, W4_v3 m ρ c])

theorem W5_v46 : W5 m ρ c (Proc.devRef .tc main_v46) = Host.brow (m ((c : Thread nD τ).loc main_arg11)) :=
  (HostOps.ops2_main_v46 (W4 m ρ c)).trans (by rw [W4_arg11 m ρ c])

theorem W5_v1 : W5 m ρ c (Proc.devRef .tc main_v1) = src m c :=
  (Keeps.keep2_main_v1 (W4 m ρ c)).trans (W4_v1 m ρ c)

theorem W5_v3 : W5 m ρ c (Proc.devRef .tc main_v3) = dst m c :=
  (Keeps.keep2_main_v3 (W4 m ρ c)).trans (W4_v3 m ρ c)

theorem W5_v11 : W5 m ρ c (Proc.devRef .tc main_v11) = dinv m c :=
  (Keeps.keep2_main_v11 (W4 m ρ c)).trans (W4_v11 m ρ c)

theorem W5_v35 : W5 m ρ c (Proc.devRef .tc main_v35) = H2 m c :=
  (Keeps.keep2_main_v35 (W4 m ρ c)).trans (W4_v35 m ρ c)

theorem W5_arg2 : W5 m ρ c (Proc.devRef .tc main_arg2) = (m ((c : Thread nD τ).loc main_arg2)) :=
  (Keeps.keep2_main_arg2 (W4 m ρ c)).trans (W4_arg2 m ρ c)

theorem W5_arg9 : W5 m ρ c (Proc.devRef .tc main_arg9) = (m ((c : Thread nD τ).loc main_arg9)) :=
  (Keeps.keep2_main_arg9 (W4 m ρ c)).trans (W4_arg9 m ρ c)

theorem W5_arg10 : W5 m ρ c (Proc.devRef .tc main_arg10) = (m ((c : Thread nD τ).loc main_arg10)) :=
  (Keeps.keep2_main_arg10 (W4 m ρ c)).trans (W4_arg10 m ρ c)

theorem W5_arg12 : W5 m ρ c (Proc.devRef .tc main_arg12) = (m ((c : Thread nD τ).loc main_arg12)) :=
  (Keeps.keep2_main_arg12 (W4 m ρ c)).trans (W4_arg12 m ρ c)

theorem W5_arg13 : W5 m ρ c (Proc.devRef .tc main_arg13) = (m ((c : Thread nD τ).loc main_arg13)) :=
  (Keeps.keep2_main_arg13 (W4 m ρ c)).trans (W4_arg13 m ρ c)

theorem W5_arg14 : W5 m ρ c (Proc.devRef .tc main_arg14) = (m ((c : Thread nD τ).loc main_arg14)) :=
  (Keeps.keep2_main_arg14 (W4 m ρ c)).trans (W4_arg14 m ρ c)

theorem W6_v47 : W6 m ρ c (Proc.devRef .tc main_v47) = H3 m c := by
  refine (W6_arr m ρ c 6).trans ((Region2.final (V5 m ρ) c).trans ?_)
  show Layer.rect (W5 m ρ c (Proc.devRef .tc main_v45)) (W5 m ρ c (Proc.devRef .tc main_v11)) (W5 m ρ c (Proc.devRef .tc main_v35)) (W5 m ρ c (Proc.devRef .tc main_arg9)) (W5 m ρ c (Proc.devRef .tc main_arg10)) (W5 m ρ c (Proc.devRef .tc main_v46)) = _
  rw [W5_v45 m ρ c, W5_v11 m ρ c, W5_v35 m ρ c, W5_arg9 m ρ c, W5_arg10 m ρ c, W5_v46 m ρ c]

theorem W6_v11 : W6 m ρ c (Proc.devRef .tc main_v11) = dinv m c :=
  (W6_arr m ρ c 1).trans (((dat2 (V5 m ρ) c).arrAt_in 1 rfl _).trans ((A_eq2 (V5 m ρ) c 1).trans (W5_v11 m ρ c)))

theorem W6_v1 : W6 m ρ c (Proc.devRef .tc main_v1) = src m c :=
  (W6_of_ne m ρ c main_v1 (by decide)).trans (W5_v1 m ρ c)

theorem W6_v3 : W6 m ρ c (Proc.devRef .tc main_v3) = dst m c :=
  (W6_of_ne m ρ c main_v3 (by decide)).trans (W5_v3 m ρ c)

theorem W6_arg2 : W6 m ρ c (Proc.devRef .tc main_arg2) = (m ((c : Thread nD τ).loc main_arg2)) :=
  (W6_of_ne m ρ c main_arg2 (by decide)).trans (W5_arg2 m ρ c)

theorem W6_arg12 : W6 m ρ c (Proc.devRef .tc main_arg12) = (m ((c : Thread nD τ).loc main_arg12)) :=
  (W6_of_ne m ρ c main_arg12 (by decide)).trans (W5_arg12 m ρ c)

theorem W6_arg13 : W6 m ρ c (Proc.devRef .tc main_arg13) = (m ((c : Thread nD τ).loc main_arg13)) :=
  (W6_of_ne m ρ c main_arg13 (by decide)).trans (W5_arg13 m ρ c)

theorem W6_arg14 : W6 m ρ c (Proc.devRef .tc main_arg14) = (m ((c : Thread nD τ).loc main_arg14)) :=
  (W6_of_ne m ρ c main_arg14 (by decide)).trans (W5_arg14 m ρ c)

theorem W7_v57 : W7 m ρ c (Proc.devRef .tc main_v57) = Host.agg (H3 m c) (src m c) (dst m c) :=
  (HostOps.ops3_main_v57 (W6 m ρ c)).trans (by rw [W6_v47 m ρ c, W6_v1 m ρ c, W6_v3 m ρ c])

theorem W7_v58 : W7 m ρ c (Proc.devRef .tc main_v58) = Host.brow2 (m ((c : Thread nD τ).loc main_arg14)) :=
  (HostOps.ops3_main_v58 (W6 m ρ c)).trans (by rw [W6_arg14 m ρ c])

theorem W7_v11 : W7 m ρ c (Proc.devRef .tc main_v11) = dinv m c :=
  (Keeps.keep3_main_v11 (W6 m ρ c)).trans (W6_v11 m ρ c)

theorem W7_v47 : W7 m ρ c (Proc.devRef .tc main_v47) = H3 m c :=
  (Keeps.keep3_main_v47 (W6 m ρ c)).trans (W6_v47 m ρ c)

theorem W7_arg2 : W7 m ρ c (Proc.devRef .tc main_arg2) = (m ((c : Thread nD τ).loc main_arg2)) :=
  (Keeps.keep3_main_arg2 (W6 m ρ c)).trans (W6_arg2 m ρ c)

theorem W7_arg12 : W7 m ρ c (Proc.devRef .tc main_arg12) = (m ((c : Thread nD τ).loc main_arg12)) :=
  (Keeps.keep3_main_arg12 (W6 m ρ c)).trans (W6_arg12 m ρ c)

theorem W7_arg13 : W7 m ρ c (Proc.devRef .tc main_arg13) = (m ((c : Thread nD τ).loc main_arg13)) :=
  (Keeps.keep3_main_arg13 (W6 m ρ c)).trans (W6_arg13 m ρ c)

theorem W8_v59 : W8 m ρ c (Proc.devRef .tc main_v59) = H4 m c := by
  refine (W8_arr m ρ c 6).trans ((Region3.final (V7 m ρ) c).trans ?_)
  show Layer.lin (W7 m ρ c (Proc.devRef .tc main_v57)) (W7 m ρ c (Proc.devRef .tc main_v11)) (W7 m ρ c (Proc.devRef .tc main_v47)) (W7 m ρ c (Proc.devRef .tc main_arg12)) (W7 m ρ c (Proc.devRef .tc main_arg13)) (W7 m ρ c (Proc.devRef .tc main_v58)) = _
  rw [W7_v57 m ρ c, W7_v11 m ρ c, W7_v47 m ρ c, W7_arg12 m ρ c, W7_arg13 m ρ c, W7_v58 m ρ c]

theorem W8_arg2 : W8 m ρ c (Proc.devRef .tc main_arg2) = (m ((c : Thread nD τ).loc main_arg2)) :=
  (W8_of_ne m ρ c main_arg2 (by decide)).trans (W7_arg2 m ρ c)

/-- The result buffer ends at the pooling by graph of the four layers composed. -/
theorem result : W9 m ρ c (Proc.devRef .tc main_v70) = Host.pool (m ((c : Thread nD τ).loc main_arg2)) (H4 m c) :=
  (HostOps.ops4_main_v70 (W8 m ρ c)).trans (by rw [W8_arg2 m ρ c, W8_v59 m ρ c])

end Cert.KernelIdeal.Walk

end
-- ==== Proof.RHost.lean ====
/-
  The host-side pieces of the idealized reference program, as functions of arrays.

  The edge list is a 2 × 600000 array of node numbers: row 0 the source of each edge, row 1 its destination. A layer's
  aggregate sums, into each destination node's row, the feature rows of the sources of the edges that end there (a
  gather through the sources, negative numbers counted from the end, then a scatter-add through the destinations); the
  in-degree column counts those edges by scatter-adding ones. The last stretch pools node rows by graph: a
  scatter-add through the graph number of each node, divided by the number of nodes of the graph clamped below at one.
-/
import proofs.«105065_j57767310131742_2_alg».proof.Proof.Gen.ReferenceIdeal

noncomputable section

namespace Cert.ReferenceIdeal.Host

open Cert.ReferenceIdeal Cert.ReferenceIdeal.Gen Idealize.ShloMosaic

variable {F : FTy → Type} [FloatOps F]

/-- Row 0 of the edge list: each edge's source node. -/
def src (e : (⟨S2x600000, .i32⟩ : BufTy).Contents (Elt F)) : (⟨S600000, .i32⟩ : BufTy).Contents (Elt F) :=
  shapeCast S600000 (extractStridedSlice S1x600000 ![0, 0] e slices_S2x600000_S1x600000_0_0) shapeCasts_S1x600000_S600000

/-- Row 1 of the edge list: each edge's destination node. -/
def dst (e : (⟨S2x600000, .i32⟩ : BufTy).Contents (Elt F)) : (⟨S600000, .i32⟩ : BufTy).Contents (Elt F) :=
  shapeCast S600000 (extractStridedSlice S1x600000 ![1, 0] e slices_S2x600000_S1x600000_1_0) shapeCasts_S1x600000_S600000

/-- The neighbour sum: for each node, the sum over the edges ending there of the feature row of the edge's source. -/
def agg (h : (⟨S50000x128, .f32⟩ : BufTy).Contents (Elt F)) (s d : (⟨S600000, .i32⟩ : BufTy).Contents (Elt F)) :
    (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 d)
    (Host.gather gather_S50000x128_S600000x1_S600000x128_1_0_n_n_0_1_1128 h
      (broadcastInDim S600000x1 ![0] bcast_S600000_S600000x1_0
        (select (cmpi CmpIPredicate.slt s (broadcastInDim S600000 ![] bcast_S_S600000 (constantI S_ 32 0#32)))
          (addi s (broadcastInDim S600000 ![] bcast_S_S600000 (constantI S_ 32 50000#32))) s)))

/-- The in-degree column clamped below at one. -/
def degc (d : (⟨S600000, .i32⟩ : BufTy).Contents (Elt F)) : (⟨S50000x1, .f32⟩ : BufTy).Contents (Elt F) :=
  maximumf
    (Host.scatterAdd scatter_S50000x1_S600000x1_S600000x1_1_0_0_1
      (broadcastInDim S50000x1 ![] bcast_S_S50000x1 (constant S_ .f32 0x00000000#32))
      (broadcastInDim S600000x1 ![0] bcast_S600000_S600000x1_0 d)
      (broadcastInDim S600000x1 ![] bcast_S_S600000x1 (constant S_ .f32 0x3F800000#32)))
    (broadcastInDim S50000x1 ![] bcast_S_S50000x1 (constant S_ .f32 0x3F800000#32))

/-- The pooling by graph: each graph's sum of node rows over its number of nodes clamped below at one. -/
def pool (b : (⟨S50000, .i32⟩ : BufTy).Contents (Elt F)) (h : (⟨S50000x2, .f32⟩ : BufTy).Contents (Elt F)) :
    (⟨S512x2, .f32⟩ : BufTy).Contents (Elt F) :=
  Host.divf
    (Host.scatterAdd scatter_S512x2_S50000x1_S50000x2_1_0_0_1
      (broadcastInDim S512x2 ![] bcast_S_S512x2 (constant S_ .f32 0x00000000#32))
      (broadcastInDim S50000x1 ![0] bcast_S50000_S50000x1_0 b) h)
    (broadcastInDim S512x2 ![0, 1] bcast_S512x1_S512x2_0_1
      (maximumf
        (Host.scatterAdd scatter_S512x1_S50000x1_S50000x1_1_0_0_1
          (broadcastInDim S512x1 ![] bcast_S_S512x1 (constant S_ .f32 0x00000000#32))
          (broadcastInDim S50000x1 ![0] bcast_S50000_S50000x1_0 b)
          (broadcastInDim S50000x1 ![] bcast_S_S50000x1 (constant S_ .f32 0x3F800000#32)))
        (broadcastInDim S512x1 ![] bcast_S_S512x1 (constant S_ .f32 0x3F800000#32))))

end Cert.ReferenceIdeal.Host

end
-- ==== Proof.RefLayers.lean ====
/-
  The idealized reference program, layer by layer.

  The reference's straight line of host operations is four layers and a pooling. Each layer takes the previous
  layer's node features (the input features for the first), recomputes the neighbour sum and the in-degree column
  from the edge list, divides, and adds the two matrix products and the bias; the first three clamp below at zero.
  Its stages, unfolded, are these layers composed.
-/
import proofs.«105065_j57767310131742_2_alg».proof.Proof.Gen.ReferenceIdeal.Read
import proofs.«105065_j57767310131742_2_alg».proof.Proof.RHost

set_option maxRecDepth 16384

noncomputable section

namespace Cert.ReferenceIdeal.Layers

open Cert.ReferenceIdeal Cert.ReferenceIdeal.Gen Cert.ReferenceIdeal.Read Idealize.ShloMosaic

variable {F : FTy → Type} [FloatOps F]

/-- A hidden layer: mean of the neighbours' features times the left weights, plus the node's own features times the
    right weights, plus the bias, clamped below at zero. -/
def layerR (h : (⟨S50000x128, .f32⟩ : BufTy).Contents (Elt F)) (s d : (⟨S600000, .i32⟩ : BufTy).Contents (Elt F)) (Wl Wr : (⟨S128x128, .f32⟩ : BufTy).Contents (Elt F))
    (b : (⟨S128, .f32⟩ : BufTy).Contents (Elt F)) : (⟨S50000x128, .f32⟩ : BufTy).Contents (Elt F) :=
  maximumf
    (addf
      (addf
        (Host.dotGeneral dot_S50000x128_S128x128_S50000x128_1_0_0_1_n_n none
          (Host.divf (Host.agg h s d) (broadcastInDim S50000x128 ![0, 1] bcast_S50000x1_S50000x128_0_1 (Host.degc d))) Wl)
        (Host.dotGeneral dot_S50000x128_S128x128_S50000x128_1_0_0_1_n_n none h Wr))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The output layer: the same without the clamp, into two channels. -/
def layerL (h : (⟨S50000x128, .f32⟩ : BufTy).Contents (Elt F)) (s d : (⟨S600000, .i32⟩ : BufTy).Contents (Elt F)) (Wl Wr : (⟨S128x2, .f32⟩ : BufTy).Contents (Elt F))
    (b : (⟨S2, .f32⟩ : BufTy).Contents (Elt F)) : (⟨S50000x2, .f32⟩ : BufTy).Contents (Elt F) :=
  addf
    (addf
      (Host.dotGeneral dot_S50000x128_S128x2_S50000x2_1_0_0_1_n_n none
        (Host.divf (Host.agg h s d) (broadcastInDim S50000x128 ![0, 1] bcast_S50000x1_S50000x128_0_1 (Host.degc d))) Wl)
      (Host.dotGeneral dot_S50000x128_S128x2_S50000x2_1_0_0_1_n_n none h Wr))
    (broadcastInDim S50000x2 ![0, 1] bcast_S1x2_S50000x2_0_1 (broadcastInDim S1x2 ![1] bcast_S2_S1x2_1 b))

variable (x0 : (⟨S50000x128, .f32⟩ : BufTy).Contents (Elt F)) (x1 : (⟨S2x600000, .i32⟩ : BufTy).Contents (Elt F)) (x2 : (⟨S50000, .i32⟩ : BufTy).Contents (Elt F))
  (x3 x4 : (⟨S128x128, .f32⟩ : BufTy).Contents (Elt F)) (x5 : (⟨S128, .f32⟩ : BufTy).Contents (Elt F)) (x6 x7 : (⟨S128x128, .f32⟩ : BufTy).Contents (Elt F)) (x8 : (⟨S128, .f32⟩ : BufTy).Contents (Elt F))
  (x9 x10 : (⟨S128x128, .f32⟩ : BufTy).Contents (Elt F)) (x11 : (⟨S128, .f32⟩ : BufTy).Contents (Elt F)) (x12 x13 : (⟨S128x2, .f32⟩ : BufTy).Contents (Elt F)) (x14 : (⟨S2, .f32⟩ : BufTy).Contents (Elt F))

theorem v28_eq : val_main_v28 (F := F) x0 x1 x3 x4 x5 = layerR x0 (Host.src x1) (Host.dst x1) x3 x4 x5 := rfl

theorem v53_eq : val_main_v53 (F := F) x0 x1 x3 x4 x5 x6 x7 x8
    = layerR (val_main_v28 (F := F) x0 x1 x3 x4 x5) (Host.src x1) (Host.dst x1) x6 x7 x8 := rfl

theorem v78_eq : val_main_v78 (F := F) x0 x1 x3 x4 x5 x6 x7 x8 x9 x10 x11
    = layerR (val_main_v53 (F := F) x0 x1 x3 x4 x5 x6 x7 x8) (Host.src x1) (Host.dst x1) x9 x10 x11 := rfl

theorem v102_eq : val_main_v102 (F := F) x0 x1 x3 x4 x5 x6 x7 x8 x9 x10 x11 x12 x13 x14
    = layerL (val_main_v78 (F := F) x0 x1 x3 x4 x5 x6 x7 x8 x9 x10 x11) (Host.src x1) (Host.dst x1) x12 x13 x14 := rfl

theorem v113_eq : val_main_v113 (F := F) x0 x1 x2 x3 x4 x5 x6 x7 x8 x9 x10 x11 x12 x13 x14
    = Host.pool x2 (val_main_v102 (F := F) x0 x1 x3 x4 x5 x6 x7 x8 x9 x10 x11 x12 x13 x14) := rfl

end Cert.ReferenceIdeal.Layers

end
-- ==== Proof.Bridge.lean ====
/-
  The kernel program's layer is the reference's layer.

  The kernel multiplies the neighbour sum by a reciprocal in-degree column computed once, `1 / max(deg, 1)`; the
  reference divides the neighbour sum by `max(deg, 1)` in every layer. The divisor is at least one, so it is not zero,
  and on the extended reals the product with the reciprocal of a nonzero number is the quotient by it, whatever the
  dividend — no finiteness is needed. The two matrix products into zero accumulators are the host's products, the
  changes of float format are the identity, a bias reshaped to a row is the bias broadcast along a new leading axis,
  and the clamp is the same maximum with zero. Index by index the two layers are one function of the previous
  layer's features, the edge list, the weights and the bias.
-/
import proofs.«105065_j57767310131742_2_alg».proof.Proof.Spec
import proofs.«105065_j57767310131742_2_alg».proof.Proof.KHost
import proofs.«105065_j57767310131742_2_alg».proof.Proof.RHost
import proofs.«105065_j57767310131742_2_alg».proof.Proof.RefLayers
import proofs.«105065_j57767310131742_2_alg».proof.Proof.LibPlainDot
import proofs.«105065_j57767310131742_2_alg».proof.Proof.LibRowBroadcasts
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.Bridge

open Idealize.ShloMosaic Idealize.ShloMosaic.ValueIdx
open scoped BigOperators

/-- A scalar constant broadcast to any shape reads, everywhere, the constant's value. -/
theorem splat_apply {t : Shape} (h : (⟨0, ![]⟩ : Shape).BroadcastsInDim t ![]) (w : BitVec FTy.f32.bits) (j : t.Idx) :
    broadcastInDim t ![] h (constant (F := Ideal) ⟨0, ![]⟩ .f32 w) j = Ideal.ofBits .f32 w :=
  broadcastInDim_apply _ h _ j ix0 (fun ax => ax.elim0)

variable {n f g : ℕ}

/-- The affine part with a reciprocal column is the host's expression with a division by the column. -/
theorem lin_eq (wf : DotDims.WF ⟨2, ![n, f]⟩ ⟨2, ![f, g]⟩ ⟨2, ![n, g]⟩ [1] [0] [0] [1] [] [])
    (hcol : (⟨2, ![n, 1]⟩ : Shape).BroadcastsInDim ⟨2, ![n, f]⟩ ![0, 1])
    (hrow : (⟨2, ![1, g]⟩ : Shape).BroadcastsInDim ⟨2, ![n, g]⟩ ![0, 1])
    (A h : FVec Ideal ⟨2, ![n, f]⟩ .f32) (dc dinv : FVec Ideal ⟨2, ![n, 1]⟩ .f32)
    (Wl Wr : FVec Ideal ⟨2, ![f, g]⟩ .f32) (b : FVec Ideal ⟨2, ![1, g]⟩ .f32)
    (hd : ∀ p : Fin n, dinv (ix2 p (0 : Fin 1)) = Ideal.div 1 (dc (ix2 p (0 : Fin 1))))
    (hne : ∀ p : Fin n, dc (ix2 p (0 : Fin 1)) ≠ 0) :
    Layer.lin A dinv h Wl Wr b
      = addf (addf (Host.dotGeneral (Lib.PlainDot.dims wf) none
            (Host.divf A (broadcastInDim ⟨2, ![n, f]⟩ ![0, 1] hcol dc)) Wl)
          (Host.dotGeneral (Lib.PlainDot.dims wf) none h Wr))
        (broadcastInDim ⟨2, ![n, g]⟩ ![0, 1] hrow b) := by
  funext j
  obtain ⟨p, q, rfl⟩ : ∃ (p : Fin n) (q : Fin g), j = ix2 p q := ⟨j 0, j 1, eq_ix2 j⟩
  unfold Layer.lin Layer.affine
  simp only [addf_apply]
  rw [Lib.PlainDot.dotGeneral_apply, Lib.PlainDot.dotGeneral_apply, Lib.Rows.dimRow_apply]
  have e : ∀ k : Fin f, A (ix2 p k) * dinv (ix2 p (0 : Fin 1)) * Wl (ix2 k q)
      = Host.divf A (broadcastInDim ⟨2, ![n, f]⟩ ![0, 1] hcol dc) (ix2 p k) * Wl (ix2 k q) := fun k => by
    show _ = Ideal.div (A (ix2 p k)) (broadcastInDim ⟨2, ![n, f]⟩ ![0, 1] hcol dc (ix2 p k)) * Wl (ix2 k q)
    rw [Lib.Rows.dimCol_apply, hd p, Layer.mul_recip _ _ (hne p)]
  show (∑ k, A (ix2 p k) * dinv (ix2 p (0 : Fin 1)) * Wl (ix2 k q)) + (∑ k, h (ix2 p k) * Wr (ix2 k q))
      + b (ix2 (0 : Fin 1) q) = _
  rw [Finset.sum_congr rfl fun k _ => e k]

/-- The clamped layer likewise: the clamp is the maximum with the zero splat. -/
theorem rect_eq (wf : DotDims.WF ⟨2, ![n, f]⟩ ⟨2, ![f, g]⟩ ⟨2, ![n, g]⟩ [1] [0] [0] [1] [] [])
    (hcol : (⟨2, ![n, 1]⟩ : Shape).BroadcastsInDim ⟨2, ![n, f]⟩ ![0, 1])
    (hrow : (⟨2, ![1, g]⟩ : Shape).BroadcastsInDim ⟨2, ![n, g]⟩ ![0, 1])
    (A h : FVec Ideal ⟨2, ![n, f]⟩ .f32) (dc dinv : FVec Ideal ⟨2, ![n, 1]⟩ .f32)
    (Wl Wr : FVec Ideal ⟨2, ![f, g]⟩ .f32) (b : FVec Ideal ⟨2, ![1, g]⟩ .f32)
    (hd : ∀ p : Fin n, dinv (ix2 p (0 : Fin 1)) = Ideal.div 1 (dc (ix2 p (0 : Fin 1))))
    (hne : ∀ p : Fin n, dc (ix2 p (0 : Fin 1)) ≠ 0)
    (hz : (⟨0, ![]⟩ : Shape).BroadcastsInDim ⟨2, ![n, g]⟩ ![]) :
    Layer.rect A dinv h Wl Wr b
      = maximumf (addf (addf (Host.dotGeneral (Lib.PlainDot.dims wf) none
              (Host.divf A (broadcastInDim ⟨2, ![n, f]⟩ ![0, 1] hcol dc)) Wl)
            (Host.dotGeneral (Lib.PlainDot.dims wf) none h Wr))
          (broadcastInDim ⟨2, ![n, g]⟩ ![0, 1] hrow b))
        (broadcastInDim ⟨2, ![n, g]⟩ ![] hz (constant (F := Ideal) ⟨0, ![]⟩ .f32 0x00000000#32)) := by
  funext j
  have hl := congrFun (lin_eq wf hcol hrow A h dc dinv Wl Wr b hd hne) j
  show max (Layer.lin A dinv h Wl Wr b j) 0 = max _ (broadcastInDim ⟨2, ![n, g]⟩ ![] hz (constant (F := Ideal) ⟨0, ![]⟩ .f32 0x00000000#32) j)
  rw [splat_apply, Ideal.ofBits_zero_f32, hl]

/-! ## The two programs' host pieces are the same functions -/

theorem src_eq (e : (⟨Cert.KernelIdeal.S2x600000, .i32⟩ : BufTy).Contents (Elt Ideal)) : Cert.KernelIdeal.Host.src (F := Ideal) e = Cert.ReferenceIdeal.Host.src (F := Ideal) e := rfl
theorem dst_eq (e : (⟨Cert.KernelIdeal.S2x600000, .i32⟩ : BufTy).Contents (Elt Ideal)) : Cert.KernelIdeal.Host.dst (F := Ideal) e = Cert.ReferenceIdeal.Host.dst (F := Ideal) e := rfl
theorem agg_eq (h : (⟨Cert.KernelIdeal.S50000x128, .f32⟩ : BufTy).Contents (Elt Ideal)) (s d : (⟨Cert.KernelIdeal.S600000, .i32⟩ : BufTy).Contents (Elt Ideal)) :
    Cert.KernelIdeal.Host.agg (F := Ideal) h s d = Cert.ReferenceIdeal.Host.agg (F := Ideal) h s d := rfl
theorem degc_eq (d : (⟨Cert.KernelIdeal.S600000, .i32⟩ : BufTy).Contents (Elt Ideal)) : Cert.KernelIdeal.Host.degc (F := Ideal) d = Cert.ReferenceIdeal.Host.degc (F := Ideal) d := rfl
theorem pool_eq (b : (⟨Cert.KernelIdeal.S50000, .i32⟩ : BufTy).Contents (Elt Ideal)) (h : (⟨Cert.KernelIdeal.S50000x2, .f32⟩ : BufTy).Contents (Elt Ideal)) :
    Cert.KernelIdeal.Host.pool (F := Ideal) b h = Cert.ReferenceIdeal.Host.pool (F := Ideal) b h := rfl

/-- The kernel program's reciprocal column at a node is one over the clamped in-degree. -/
theorem dinv_apply (d : (⟨Cert.KernelIdeal.S600000, .i32⟩ : BufTy).Contents (Elt Ideal)) (p : Fin 50000) :
    Cert.KernelIdeal.Host.dinv (F := Ideal) d (ix2 p (0 : Fin 1)) = Ideal.div 1 (Cert.ReferenceIdeal.Host.degc (F := Ideal) d (ix2 p (0 : Fin 1))) := by
  unfold Cert.KernelIdeal.Host.dinv
  rw [hostDivf_apply, splat_apply, Ideal.ofBits_one_f32, degc_eq]

/-- The clamped in-degree is not zero. -/
theorem degc_ne (d : (⟨Cert.KernelIdeal.S600000, .i32⟩ : BufTy).Contents (Elt Ideal)) (p : Fin 50000) :
    Cert.ReferenceIdeal.Host.degc (F := Ideal) d (ix2 p (0 : Fin 1)) ≠ 0 := by
  unfold Cert.ReferenceIdeal.Host.degc
  rw [maximumf_apply, splat_apply, Ideal.ofBits_one_f32]
  exact Layer.max_one_ne_zero _

/-- A hidden layer of the kernel program is the reference's hidden layer. -/
theorem layerR_eq (h : (⟨Cert.KernelIdeal.S50000x128, .f32⟩ : BufTy).Contents (Elt Ideal)) (s d : (⟨Cert.KernelIdeal.S600000, .i32⟩ : BufTy).Contents (Elt Ideal))
    (Wl Wr : (⟨Cert.KernelIdeal.S128x128, .f32⟩ : BufTy).Contents (Elt Ideal)) (b : (⟨Cert.KernelIdeal.S128, .f32⟩ : BufTy).Contents (Elt Ideal)) :
    Layer.rect (Cert.KernelIdeal.Host.agg (F := Ideal) h s d) (Cert.KernelIdeal.Host.dinv (F := Ideal) d) h Wl Wr (Cert.KernelIdeal.Host.brow (F := Ideal) b)
      = Cert.ReferenceIdeal.Layers.layerR (F := Ideal) h s d Wl Wr b := by
  rw [agg_eq, show Cert.KernelIdeal.Host.brow (F := Ideal) b = broadcastInDim Cert.ReferenceIdeal.S1x128 ![1] Cert.ReferenceIdeal.Gen.bcast_S128_S1x128_1 b from
    Lib.Rows.castRow_eq_dimRow b _ _]
  exact rect_eq Cert.ReferenceIdeal.Gen.dot_S50000x128_S128x128_S50000x128_1_0_0_1_n_n_wf Cert.ReferenceIdeal.Gen.bcast_S50000x1_S50000x128_0_1
    Cert.ReferenceIdeal.Gen.bcast_S1x128_S50000x128_0_1 _ h (Cert.ReferenceIdeal.Host.degc (F := Ideal) d) (Cert.KernelIdeal.Host.dinv (F := Ideal) d) Wl Wr _
    (dinv_apply d) (degc_ne d) Cert.ReferenceIdeal.Gen.bcast_S_S50000x128

/-- The output layer of the kernel program is the reference's output layer. -/
theorem layerL_eq (h : (⟨Cert.KernelIdeal.S50000x128, .f32⟩ : BufTy).Contents (Elt Ideal)) (s d : (⟨Cert.KernelIdeal.S600000, .i32⟩ : BufTy).Contents (Elt Ideal))
    (Wl Wr : (⟨Cert.KernelIdeal.S128x2, .f32⟩ : BufTy).Contents (Elt Ideal)) (b : (⟨Cert.KernelIdeal.S2, .f32⟩ : BufTy).Contents (Elt Ideal)) :
    Layer.lin (Cert.KernelIdeal.Host.agg (F := Ideal) h s d) (Cert.KernelIdeal.Host.dinv (F := Ideal) d) h Wl Wr (Cert.KernelIdeal.Host.brow2 (F := Ideal) b)
      = Cert.ReferenceIdeal.Layers.layerL (F := Ideal) h s d Wl Wr b := by
  rw [agg_eq, show Cert.KernelIdeal.Host.brow2 (F := Ideal) b = broadcastInDim Cert.ReferenceIdeal.S1x2 ![1] Cert.ReferenceIdeal.Gen.bcast_S2_S1x2_1 b from
    Lib.Rows.castRow_eq_dimRow b _ _]
  exact lin_eq Cert.ReferenceIdeal.Gen.dot_S50000x128_S128x2_S50000x2_1_0_0_1_n_n_wf Cert.ReferenceIdeal.Gen.bcast_S50000x1_S50000x128_0_1
    Cert.ReferenceIdeal.Gen.bcast_S1x2_S50000x2_0_1 _ h (Cert.ReferenceIdeal.Host.degc (F := Ideal) d) (Cert.KernelIdeal.Host.dinv (F := Ideal) d) Wl Wr _
    (dinv_apply d) (degc_ne d)

end Cert.Bridge

end
-- ==== Proof.lean ====
/-
  The certificate: the idealized kernel program and the idealized reference compute the same pooled node scores.

  Both programs run a four-layer neighbourhood-averaging network on a graph and average the last layer's two scores
  per graph. They share the gathers, the scatter-adds and the pooling operation for operation; they differ only in
  how a layer normalises the neighbour sum — the kernel multiplies by a reciprocal in-degree column computed once and
  does the layer's two matrix products, bias and clamp in one launch over blocks of 5000 nodes, the reference divides
  by the clamped in-degree and uses the host's matrix products. At the exact values these are one function: the
  clamped in-degree is at least one, and a product with the reciprocal of a nonzero number is the quotient by it on
  every extended real. The three frames are the generated ones; the ideal pass's ledger is empty, so the claim's
  conjunct about the idealization is `True`.
-/
import proofs.«105065_j57767310131742_2_alg».proof.Defs
import proofs.«105065_j57767310131742_2_alg».proof.Proof.Gen.Kernel
import proofs.«105065_j57767310131742_2_alg».proof.Proof.Gen.Kernel.Skeleton
import proofs.«105065_j57767310131742_2_alg».proof.Proof.Gen.Kernel.Launch
import proofs.«105065_j57767310131742_2_alg».proof.Proof.Gen.Kernel.Points
import proofs.«105065_j57767310131742_2_alg».proof.Proof.Gen.Kernel.Frame
import proofs.«105065_j57767310131742_2_alg».proof.Proof.Gen.KernelIdeal
import proofs.«105065_j57767310131742_2_alg».proof.Proof.Gen.KernelIdeal.Skeleton
import proofs.«105065_j57767310131742_2_alg».proof.Proof.Gen.KernelIdeal.Launch
import proofs.«105065_j57767310131742_2_alg».proof.Proof.Gen.KernelIdeal.Points
import proofs.«105065_j57767310131742_2_alg».proof.Proof.Gen.KernelIdeal.Frame
import proofs.«105065_j57767310131742_2_alg».proof.Proof.Gen.ReferenceIdeal
import proofs.«105065_j57767310131742_2_alg».proof.Proof.Gen.Pre_finite_inputs
import proofs.«105065_j57767310131742_2_alg».proof.Proof.Gen.ReferenceIdeal.Run
import proofs.«105065_j57767310131742_2_alg».proof.Proof.Gen.ReferenceIdeal.Read
import proofs.«105065_j57767310131742_2_alg».proof.Proof.KernelRun
import proofs.«105065_j57767310131742_2_alg».proof.Proof.Walk
import proofs.«105065_j57767310131742_2_alg».proof.Proof.RefLayers
import proofs.«105065_j57767310131742_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the pooling of the four layers composed, stated as the kernel program's
    expression: the kernel's by following its fold, the reference's by regrouping its stages into layers and
    replacing each by the kernel's layer. -/
theorem algebraic : Cert.algebraic_KernelIdeal_ReferenceIdeal := by
  intro m ρ m' ρ' _ hagree
  refine ⟨fun c => Cert.KernelIdeal.Host.pool (F := Ideal)
      (m ((c.tc : Thread Cert.KernelIdeal.nD Cert.KernelIdeal.τ).loc Cert.KernelIdeal.main_arg2)) (Cert.KernelIdeal.Walk.H4 m c), ?_, ?_⟩
  · exact (θ_run Cert.KernelIdeal.defs _ _).mono
      (fun r h c => ⟨(h c).1.trans (Cert.KernelIdeal.Walk.result m ρ c), (h c).2⟩) (Cert.KernelIdeal.KRun.run m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    rw [Cert.ReferenceIdeal.Read.val_main_v113_eq, Cert.ReferenceIdeal.Layers.v113_eq, Cert.ReferenceIdeal.Layers.v102_eq,
      Cert.ReferenceIdeal.Layers.v78_eq, Cert.ReferenceIdeal.Layers.v53_eq, Cert.ReferenceIdeal.Layers.v28_eq,
      h0, h1, h2, h3, h4, h5, h6, h7, h8, h9, h10, h11, h12, h13, h14]
    show _ = Cert.KernelIdeal.Host.pool (F := Ideal)
      (m ((c.tc : Thread Cert.KernelIdeal.nD Cert.KernelIdeal.τ).loc Cert.KernelIdeal.main_arg2)) (Cert.KernelIdeal.Walk.H4 m c)
    symm
    unfold Cert.KernelIdeal.Walk.H4 Cert.KernelIdeal.Walk.H3 Cert.KernelIdeal.Walk.H2 Cert.KernelIdeal.Walk.H1
      Cert.KernelIdeal.Walk.dinv Cert.KernelIdeal.Walk.src Cert.KernelIdeal.Walk.dst
    rw [Cert.Bridge.pool_eq, Cert.Bridge.layerL_eq, Cert.Bridge.layerR_eq, Cert.Bridge.layerR_eq, Cert.Bridge.layerR_eq,
      Cert.Bridge.src_eq, Cert.Bridge.dst_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
